-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x600 : S_.BroadcastsInDim S128x600 (![] : Fin 0 → Fin S128x600.rank)
  reducesTo_S128x600_S_d0_1 : S128x600.ReducesTo [0, 1] S_
  bcast_S_S600 : S_.BroadcastsInDim S600 (![] : Fin 0 → Fin S600.rank)
  reducesTo_S600_S_d0 : S600.ReducesTo [0] S_
  bcast_S_S600x16 : S_.BroadcastsInDim S600x16 (![] : Fin 0 → Fin S600x16.rank)
  reducesTo_S600x16_S_d0_1 : S600x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_arg7 : FVec F S4 .f32) (main_arg8 : FVec F S4x16 .f32) (main_arg9 : FVec F S16 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4x16 .f32 := Host.absf main_arg8
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S600x16 .f32) (main_arg5 : FVec F S16 .f32) (main_arg6 : FVec F S16x4 .f32) (main_arg7 : FVec F S4 .f32) (main_arg8 : FVec F S4x16 .f32) (main_arg9 : FVec F S16 .f32) (main_v13 : IVec S_ 1) (main_v16 : IVec S600 1) : IVec S_ 1 :=
  let main_c_5 : IVec S_ 1 := constantI S_ 1 1#1
  let main_v17 : IVec S_ 1 := (fun x v => Host.reduce IntOp.andi x v reducesTo_S600_S_d0 h_S_) main_v16 main_c_5
  let main_v18 : IVec S_ 1 := andi main_v13 main_v17
  let main_v19 : FVec F S600x16 .f32 := Host.absf main_arg4
  let main_cst_6 : FVec F S_ .f32 := constant S_ .f32 0x7F800000#32
  let main_v20 : FVec F S600x16 .f32 := broadcastInDim S600x16 ![] bcast_S_S600x16 main_cst_6
  let main_v21 : IVec S600x16 1 := cmpf .olt main_v19 main_v20
  let main_c_7 : IVec S_ 1 := constantI S_ 1 1#1
  let main_v22 : IVec S_ 1 := (fun x v => Host.reduce IntOp.andi x v reducesTo_S600x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x4 .f32 := Host.absf main_arg6
  let main_cst_10 : FVec F S_ .f32 := constant S_ .f32 0x7F800000#32
  let main_v30 : FVec F S16x4 .f32 := broadcastInDim S16x4 ![] bcast_S_S16x4 main_cst_10
  let main_v31 : IVec S16x4 1 := cmpf .olt main_v29 main_v30
  let main_c_11 : IVec S_ 1 := constantI S_ 1 1#1
  let main_v32 : IVec S_ 1 := (fun x v => Host.reduce IntOp.andi x v reducesTo_S16x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x600 .f32) (main_arg3 : FVec F S600 .f32) (main_arg4 : FVec F S600x16 .f32) (main_arg5 : FVec F S16 .f32) (main_arg6 : FVec F S16x4 .f32) (main_arg7 : FVec F S4 .f32) (main_arg8 : FVec F S4x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x600 .f32 := Host.absf main_arg2
  let main_cst_2 : FVec F S_ .f32 := constant S_ .f32 0x7F800000#32
  let main_v10 : FVec F S128x600 .f32 := broadcastInDim S128x600 ![] bcast_S_S128x600 main_cst_2
  let main_v11 : IVec S128x600 1 := cmpf .olt main_v9 main_v10
  let main_c_3 : IVec S_ 1 := constantI S_ 1 1#1
  let main_v12 : IVec S_ 1 := (fun x v => Host.reduce IntOp.andi x v reducesTo_S128x600_S_d0_1 h_S_) main_v11 main_c_3
  let main_v13 : IVec S_ 1 := andi main_v8 main_v12
  let main_v14 : FVec F S600 .f32 := Host.absf main_arg3
  let main_cst_4 : FVec F S_ .f32 := constant S_ .f32 0x7F800000#32
  let main_v15 : FVec F S600 .f32 := broadcastInDim S600 ![] bcast_S_S600 main_cst_4
  let main_v16 : IVec S600 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S1x600 : Shape := ⟨2, ![1, 600]⟩
abbrev S10000x16 : Shape := ⟨2, ![10000, 16]⟩
abbrev S1x16 : Shape := ⟨2, ![1, 16]⟩
abbrev S10000x4 : Shape := ⟨2, ![10000, 4]⟩
abbrev S1x4 : Shape := ⟨2, ![1, 4]⟩
abbrev S400x10000 : Shape := ⟨2, ![400, 10000]⟩
abbrev S400x16 : Shape := ⟨2, ![400, 16]⟩
abbrev S400x128 : Shape := ⟨2, ![400, 128]⟩
abbrev S400x600 : Shape := ⟨2, ![400, 600]⟩
abbrev S400x4 : Shape := ⟨2, ![400, 4]⟩
abbrev S400 : Shape := ⟨1, ![400]⟩
abbrev S400x1 : Shape := ⟨2, ![400, 1]⟩

abbrev nBuf : Space → Nat
  | .hbm => 23
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x600, .f32⟩
  | .hbm, ⟨3, _⟩ => ⟨S600, .f32⟩
  | .hbm, ⟨4, _⟩ => ⟨S600x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S4x16, .f32⟩
  | .hbm, ⟨9, _⟩ => ⟨S16, .f32⟩
  | .hbm, ⟨10, _⟩ => ⟨S10000x128, .bf16⟩
  | .hbm, ⟨11, _⟩ => ⟨S1x600, .f32⟩
  | .hbm, ⟨12, _⟩ => ⟨S10000x16, .f32⟩
  | .hbm, ⟨13, _⟩ => ⟨S10000x10000, .bf16⟩
  | .hbm, ⟨14, _⟩ => ⟨S10000x16, .bf16⟩
  | .hbm, ⟨15, _⟩ => ⟨S1x16, .f32⟩
  | .hbm, ⟨16, _⟩ => ⟨S10000x4, .f32⟩
  | .hbm, ⟨17, _⟩ => ⟨S10000x4, .bf16⟩
  | .hbm, ⟨18, _⟩ => ⟨S1x4, .f32⟩
  | .hbm, ⟨19, _⟩ => ⟨S10000x16, .f32⟩
  | .hbm, ⟨20, _⟩ => ⟨S10000x16, .bf16⟩
  | .hbm, ⟨21, _⟩ => ⟨S1x16, .f32⟩
  | .hbm, ⟨22, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x600, .f32⟩
  | .local _ .vmem, ⟨4, _⟩ => ⟨S1x600, .f32⟩
  | .local _ .vmem, ⟨5, _⟩ => ⟨S600x16, .f32⟩
  | .local _ .vmem, ⟨6, _⟩ => ⟨S400x16, .f32⟩
  | .local _ .vmem, ⟨7, _⟩ => ⟨S400x16, .f32⟩
  | .local _ .vmem, ⟨8, _⟩ => ⟨S400x10000, .bf16⟩
  | .local _ .vmem, ⟨9, _⟩ => ⟨S400x10000, .bf16⟩
  | .local _ .vmem, ⟨10, _⟩ => ⟨S400x10000, .bf16⟩
  | .local _ .vmem, ⟨11, _⟩ => ⟨S400x10000, .bf16⟩
  | .local _ .vmem, ⟨12, _⟩ => ⟨S10000x16, .bf16⟩
  | .local _ .vmem, ⟨13, _⟩ => ⟨S1x16, .f32⟩
  | .local _ .vmem, ⟨14, _⟩ => ⟨S16x4, .f32⟩
  | .local _ .vmem, ⟨15, _⟩ => ⟨S400x4, .f32⟩
  | .local _ .vmem, ⟨16, _⟩ => ⟨S400x4, .f32⟩
  | .local _ .vmem, ⟨17, _⟩ => ⟨S400x10000, .bf16⟩
  | .local _ .vmem, ⟨18, _⟩ => ⟨S400x10000, .bf16⟩
  | .local _ .vmem, ⟨19, _⟩ => ⟨S10000x4, .bf16⟩
  | .local _ .vmem, ⟨20, _⟩ => ⟨S1x4, .f32⟩
  | .local _ .vmem, ⟨21, _⟩ => ⟨S4x16, .f32⟩
  | .local _ .vmem, ⟨22, _⟩ => ⟨S400x16, .f32⟩
  | .local _ .vmem, ⟨23, _⟩ => ⟨S400x16, .f32⟩
  | .local _ .vmem, ⟨24, _⟩ => ⟨S400x10000, .bf16⟩
  | .local _ .vmem, ⟨25, _⟩ => ⟨S400x10000, .bf16⟩
  | .local _ .vmem, ⟨26, _⟩ => ⟨S10000x16, .bf16⟩
  | .local _ .vmem, ⟨27, _⟩ => ⟨S1x16, .f32⟩
  | .local _ .vmem, ⟨28, _⟩ => ⟨S400x16, .f32⟩
  | .local _ .vmem, ⟨29, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2_0 : Ref sig .tc := ⟨.hbm, 12, rfl⟩
abbrev main_call0_v2_1 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x4 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S600_S1x600 : S600.ShapeCasts S1x600
  shapeCasts_S16_S1x16 : S16.ShapeCasts S1x16
  shapeCasts_S4_S1x4 : S4.ShapeCasts S1x4
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x600_S128x600_0_0 : ∀ a, (![0, 0] : Fin 2 → Nat) a + S128x600.size a ≤ S128x600.size a
  h_S128x600 : 0 < S128x600.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S400x600 : S1x600.Broadcasts S400x600
  inb_S600x16_S600x16_0_0 : ∀ a, (![0, 0] : Fin 2 → Nat) a + S600x16.size a ≤ S600x16.size a
  h_S600x16 : 0 < S600x16.numel
  inb_S400x16_S400x16_0_0 : ∀ a, (![0, 0] : Fin 2 → Nat) a + S400x16.size a ≤ S400x16.size a
  h_S400x16 : 0 < S400x16.numel
  shapeCasts_S400x10000_S400x10000 : S400x10000.ShapeCasts S400x10000
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x4_S16x4_0_0 : ∀ a, (![0, 0] : Fin 2 → Nat) a + S16x4.size a ≤ S16x4.size a
  h_S16x4 : 0 < S16x4.numel
  inb_S400x4_S400x4_0_0 : ∀ a, (![0, 0] : Fin 2 → Nat) a + S400x4.size a ≤ S400x4.size a
  h_S400x4 : 0 < S400x4.numel
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S400x4 : S1x4.Broadcasts S400x4
  inb_S4x16_S4x16_0_0 : ∀ a, (![0, 0] : Fin 2 → Nat) a + S4x16.size a ≤ S4x16.size a
  h_S4x16 : 0 < S4x16.numel
  reduces_S400x16_S400 : S400x16.Reduces [1] S400
  shapeCasts_S400_S400x1 : S400.ShapeCasts S400x1
  broadcasts_S400x1_S400x16 : S400x1.Broadcasts S400x16
  dot_S400x10000_S10000x128_S400x128_1_0_0_1_n_n_wf : DotDims.WF S400x10000 S10000x128 S400x128 [1] [0] [0] [1] [] []
  dot_S400x128_S128x600_S400x600_1_0_0_1_n_n_wf : DotDims.WF S400x128 S128x600 S400x600 [1] [0] [0] [1] [] []
  dot_S400x600_S600x16_S400x16_1_0_0_1_n_n_wf : DotDims.WF S400x600 S600x16 S400x16 [1] [0] [0] [1] [] []
  dot_S400x10000_S10000x16_S400x16_1_0_0_1_n_n_wf : DotDims.WF S400x10000 S10000x16 S400x16 [1] [0] [0] [1] [] []
  dot_S400x16_S16x4_S400x4_1_0_0_1_n_n_wf : DotDims.WF S400x16 S16x4 S400x4 [1] [0] [0] [1] [] []
  dot_S400x10000_S10000x4_S400x4_1_0_0_1_n_n_wf : DotDims.WF S400x10000 S10000x4 S400x4 [1] [0] [0] [1] [] []
  dot_S400x4_S4x16_S400x16_1_0_0_1_n_n_wf : DotDims.WF S400x4 S4x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x600.size a ≤ S128x600.size a
  hwx0_2 : ∀ i : grid0.Coords, EltTy.bits .f32 = 32 ∨ (Rect.block (s := S128x600) S128x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x600.size a ≤ S1x600.size a
  hwx0_3 : ∀ i : grid0.Coords, EltTy.bits .f32 = 32 ∨ (Rect.block (s := S1x600) S1x600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600x16.size a ≤ S600x16.size a
  hwx0_4 : ∀ i : grid0.Coords, EltTy.bits .f32 = 32 ∨ (Rect.block (s := S600x16) S600x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .bf16 = 32 ∨ (Rect.block (s := S10000x16) S10000x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x4.size a ≤ S16x4.size a
  hwx1_3 : ∀ i : grid1.Coords, EltTy.bits .f32 = 32 ∨ (Rect.block (s := S16x4) S16x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x4.size a ≤ S10000x4.size a
  hwx1_4 : ∀ i : grid1.Coords, EltTy.bits .f32 = 32 ∨ (Rect.block (s := S10000x4) S400x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x4.size a ≤ S10000x4.size a
  hwx2_1 : ∀ i : grid2.Coords, EltTy.bits .bf16 = 32 ∨ (Rect.block (s := S10000x4) S10000x4.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x16.size a ≤ S4x16.size a
  hwx2_3 : ∀ i : grid2.Coords, EltTy.bits .f32 = 32 ∨ (Rect.block (s := S4x16) S4x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x600_S400x600_1_0_0_1_n_n : DotDims S400x128 S128x600 S400x600 where
  lhsContracting := [1]
  rhsContracting := [0]
  lhsNonContracting := [0]
  rhsNonContracting := [1]
  lhsBatch := []
  rhsBatch := []
  wf := dot_S400x128_S128x600_S400x600_1_0_0_1_n_n_wf
def dot_S400x600_S600x16_S400x16_1_0_0_1_n_n : DotDims S400x600 S600x16 S400x16 where
  lhsContracting := [1]
  rhsContracting := [0]
  lhsNonContracting := [0]
  rhsNonContracting := [1]
  lhsBatch := []
  rhsBatch := []
  wf := dot_S400x600_S600x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x4_S400x4_1_0_0_1_n_n : DotDims S400x16 S16x4 S400x4 where
  lhsContracting := [1]
  rhsContracting := [0]
  lhsNonContracting := [0]
  rhsNonContracting := [1]
  lhsBatch := []
  rhsBatch := []
  wf := dot_S400x16_S16x4_S400x4_1_0_0_1_n_n_wf
def dot_S400x10000_S10000x4_S400x4_1_0_0_1_n_n : DotDims S400x10000 S10000x4 S400x4 where
  lhsContracting := [1]
  rhsContracting := [0]
  lhsNonContracting := [0]
  rhsNonContracting := [1]
  lhsBatch := []
  rhsBatch := []
  wf := dot_S400x10000_S10000x4_S400x4_1_0_0_1_n_n_wf
def dot_S400x4_S4x16_S400x16_1_0_0_1_n_n : DotDims S400x4 S4x16 S400x16 where
  lhsContracting := [1]
  rhsContracting := [0]
  lhsNonContracting := [0]
  rhsNonContracting := [1]
  lhsBatch := []
  rhsBatch := []
  wf := dot_S400x4_S4x16_S400x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S600x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_0) S400x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2_1) S400x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v2_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v5) S400x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v6) S10000x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v7) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S4x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v8) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v9) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v10) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S10000x600 : Shape := ⟨2, ![10000, 600]⟩
abbrev S1x600 : Shape := ⟨2, ![1, 600]⟩
abbrev S_ : Shape := ⟨0, ![]⟩
abbrev S10000x16 : Shape := ⟨2, ![10000, 16]⟩
abbrev S1x16 : Shape := ⟨2, ![1, 16]⟩
abbrev S10000x4 : Shape := ⟨2, ![10000, 4]⟩
abbrev S1x4 : Shape := ⟨2, ![1, 4]⟩
abbrev S10000 : Shape := ⟨1, ![10000]⟩
abbrev S10000x1 : Shape := ⟨2, ![10000, 1]⟩

abbrev nBuf : Space → Nat
  | .hbm => 54
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x600, .f32⟩
  | .hbm, ⟨3, _⟩ => ⟨S600, .f32⟩
  | .hbm, ⟨4, _⟩ => ⟨S600x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S4x16, .f32⟩
  | .hbm, ⟨9, _⟩ => ⟨S16, .f32⟩
  | .hbm, ⟨10, _⟩ => ⟨S10000x600, .f32⟩
  | .hbm, ⟨11, _⟩ => ⟨S10000x600, .f32⟩
  | .hbm, ⟨12, _⟩ => ⟨S1x600, .f32⟩
  | .hbm, ⟨13, _⟩ => ⟨S10000x600, .f32⟩
  | .hbm, ⟨14, _⟩ => ⟨S10000x600, .f32⟩
  | .hbm, ⟨15, _⟩ => ⟨S_, .f32⟩
  | .hbm, ⟨16, _⟩ => ⟨S10000x600, .f32⟩
  | .hbm, ⟨17, _⟩ => ⟨S10000x600, .f32⟩
  | .hbm, ⟨18, _⟩ => ⟨S10000x16, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000x16, .f32⟩
  | .hbm, ⟨25, _⟩ => ⟨S10000x16, .f32⟩
  | .hbm, ⟨26, _⟩ => ⟨S10000x4, .f32⟩
  | .hbm, ⟨27, _⟩ => ⟨S10000x4, .f32⟩
  | .hbm, ⟨28, _⟩ => ⟨S1x4, .f32⟩
  | .hbm, ⟨29, _⟩ => ⟨S10000x4, .f32⟩
  | .hbm, ⟨30, _⟩ => ⟨S10000x4, .f32⟩
  | .hbm, ⟨31, _⟩ => ⟨S_, .f32⟩
  | .hbm, ⟨32, _⟩ => ⟨S10000x4, .f32⟩
  | .hbm, ⟨33, _⟩ => ⟨S10000x4, .f32⟩
  | .hbm, ⟨34, _⟩ => ⟨S10000x16, .f32⟩
  | .hbm, ⟨35, _⟩ => ⟨S10000x16, .f32⟩
  | .hbm, ⟨36, _⟩ => ⟨S1x16, .f32⟩
  | .hbm, ⟨37, _⟩ => ⟨S10000x16, .f32⟩
  | .hbm, ⟨38, _⟩ => ⟨S10000x16, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x16, .f32⟩
  | .hbm, ⟨46, _⟩ => ⟨S10000x16, .f32⟩
  | .hbm, ⟨47, _⟩ => ⟨S10000x16, .f32⟩
  | .hbm, ⟨48, _⟩ => ⟨S_, .f32⟩
  | .hbm, ⟨49, _⟩ => ⟨S10000, .f32⟩
  | .hbm, ⟨50, _⟩ => ⟨S10000x1, .f32⟩
  | .hbm, ⟨51, _⟩ => ⟨S10000x1, .f32⟩
  | .hbm, ⟨52, _⟩ => ⟨S10000x16, .f32⟩
  | .hbm, ⟨53, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  bcast_S_S10000x600 : S_.BroadcastsInDim S10000x600 (![] : Fin 0 → Fin S10000x600.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  bcast_S_S10000x4 : S_.BroadcastsInDim S10000x4 (![] : Fin 0 → Fin S10000x4.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x600_S10000x600_1_0_0_1_n_n_wf : DotDims.WF S10000x128 S128x600 S10000x600 [1] [0] [0] [1] [] []
  dot_S10000x10000_S10000x600_S10000x600_1_0_0_1_n_n_wf : DotDims.WF S10000x10000 S10000x600 S10000x600 [1] [0] [0] [1] [] []
  dot_S10000x600_S600x16_S10000x16_1_0_0_1_n_n_wf : DotDims.WF S10000x600 S600x16 S10000x16 [1] [0] [0] [1] [] []
  dot_S10000x10000_S10000x16_S10000x16_1_0_0_1_n_n_wf : DotDims.WF S10000x10000 S10000x16 S10000x16 [1] [0] [0] [1] [] []
  dot_S10000x16_S16x4_S10000x4_1_0_0_1_n_n_wf : DotDims.WF S10000x16 S16x4 S10000x4 [1] [0] [0] [1] [] []
  dot_S10000x10000_S10000x4_S10000x4_1_0_0_1_n_n_wf : DotDims.WF S10000x10000 S10000x4 S10000x4 [1] [0] [0] [1] [] []
  dot_S10000x4_S4x16_S10000x16_1_0_0_1_n_n_wf : DotDims.WF S10000x4 S4x16 S10000x16 [1] [0] [0] [1] [] []

variable [Facts₀]

def dot_S10000x128_S128x600_S10000x600_1_0_0_1_n_n : DotDims S10000x128 S128x600 S10000x600 where
  lhsContracting := [1]
  rhsContracting := [0]
  lhsNonContracting := [0]
  rhsNonContracting := [1]
  lhsBatch := []
  rhsBatch := []
  wf := dot_S10000x128_S128x600_S10000x600_1_0_0_1_n_n_wf
def dot_S10000x10000_S10000x600_S10000x600_1_0_0_1_n_n : DotDims S10000x10000 S10000x600 S10000x600 where
  lhsContracting := [1]
  rhsContracting := [0]
  lhsNonContracting := [0]
  rhsNonContracting := [1]
  lhsBatch := []
  rhsBatch := []
  wf := dot_S10000x10000_S10000x600_S10000x600_1_0_0_1_n_n_wf
def dot_S10000x600_S600x16_S10000x16_1_0_0_1_n_n : DotDims S10000x600 S600x16 S10000x16 where
  lhsContracting := [1]
  rhsContracting := [0]
  lhsNonContracting := [0]
  rhsNonContracting := [1]
  lhsBatch := []
  rhsBatch := []
  wf := dot_S10000x600_S600x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf

class Facts : Prop extends Facts₀ where

variable [Facts]
-- ==== Proof.KernelRun.lean ====
/-
  THE IDEALIZED KERNEL'S RUN WITH ITS RESULT NAMED.

  @main is four host stretches (each: one change of float format and one reshape of a bias) alternating with four
  pipelined regions. Its generated frame certificate carries the buffer contents through these eight segments as a fold
  from the launch memory — after a host stretch the operations' pure results, after a region each window's array at what
  the write-backs of all grid points leave — and concludes that every unscoped buffer ends at the fold's last stage. The
  frame claim keeps only the argument arrays of that conclusion; here the same launch over the same segments is read at
  the result buffer too: the result array ends at the last stage of the fold, the arguments as launched.
-/
import proofs.«179443_g1520418423397_cont_week2b_307_4_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last stage of the
    segment fold and every argument array as launched. -/
theorem run_named : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Named

end
-- ==== Proof.Spec.lean ====
/-
  THE MATHEMATICS OF THE FOUR-LAYER GRAPH CONVOLUTION, over plain matrices of extended reals.

  A matrix is a function of a row and a column coordinate. With
      (A · B) r c        = ∑ k, A r k * B k c                    (the matrix product),
      relu⁺ H b r c      = max (H r c + b c) 0                    (a bias row added, then the positive part),
      layer A S b W      = relu⁺ (A · S) b · W                    (aggregate over the graph, rectify, project),
      logSoftmax Z r c   = (Z r c − μ r) − log ∑ k, exp (Z r k − μ r),   μ r the maximum of row r,
  the network computed with the FIRST layer's two products taken left to right is
      logSoftmax (A · layer A (layer A (relu⁺ ((A · X) · W₁) b₁ · W₂) b₂ W₃) b₃ W₄ + b₄),
  and computed with the feature product first it has A · (X · W₁) in place of (A · X) · W₁.
  The two agree when A, X and W₁ hold real numbers: the matrix product is associative over ℝ, where a factor may be
  moved across a finite sum; at an infinite entry that distributive step fails, which is why finiteness is asked.
  Zero and −∞ are kept as the binary words the programs spell them with.
-/
import Idealize.ShloMosaic.PureOps.Ideal
import Idealize.ShloMosaic.Lib.ValueIdx

noncomputable section

open scoped BigOperators

namespace Cert.Gcn

open Idealize.ShloMosaic Idealize.ShloMosaic.ValueIdx

/-- Zero as both programs write it. -/
abbrev zero32 : EReal := Ideal.ofBits .f32 0x00000000#32
/-- −∞ as both programs write it (the identity of a row maximum). -/
abbrev negInf : EReal := Ideal.ofBits .f32 0xFF800000#32

variable {M K L N : ℕ}

/-- The matrix product. -/
def mmul (A : Fin M → Fin K → EReal) (B : Fin K → Fin N → EReal) : Fin M → Fin N → EReal :=
  fun r c => ∑ k : Fin K, A r k * B k c

/-- A bias row added to every row. -/
def addBias (H : Fin M → Fin N → EReal) (b : Fin N → EReal) : Fin M → Fin N → EReal :=
  fun r c => H r c + b c

/-- A bias row added to every row, then the positive part. -/
def biasRelu (H : Fin M → Fin N → EReal) (b : Fin N → EReal) : Fin M → Fin N → EReal :=
  fun r c => max (H r c + b c) zero32

/-- One graph-convolution layer followed by the next layer's projection: aggregate `S` over the graph `A`, add the
    bias, rectify, multiply by `W`. -/
def layer (A : Fin M → Fin K → EReal) (S : Fin K → Fin L → EReal) (b : Fin L → EReal) (W : Fin L → Fin N → EReal) :
    Fin M → Fin N → EReal :=
  mmul (biasRelu (mmul A S) b) W

/-- The maximum of a row, folded from −∞. -/
def rowMax (Z : Fin M → Fin N → EReal) (r : Fin M) : EReal :=
  (Finset.univ : Finset (Fin N)).fold max negInf (fun k => Z r k)

/-- The logarithm of the softmax along each row, in its shifted form. -/
def logSoftmax (Z : Fin M → Fin N → EReal) : Fin M → Fin N → EReal :=
  fun r c => (Z r c - rowMax Z r) - Ideal.log (∑ k : Fin N, Ideal.exp (Z r k - rowMax Z r))

/-- The tail shared by both computations, from the first layer's projected output `S₂` on. -/
def tail {n h2 h3 cN : ℕ} (A : Fin n → Fin n → EReal) (S2 : Fin n → Fin h2 → EReal) (b2 : Fin h2 → EReal)
    (W3 : Fin h2 → Fin h3 → EReal) (b3 : Fin h3 → EReal) (W4 : Fin h3 → Fin cN → EReal) (b4 : Fin cN → EReal) :
    Fin n → Fin cN → EReal :=
  logSoftmax (addBias (mmul A (layer A (layer A S2 b2 W3) b3 W4)) b4)

/-- The first layer with the aggregation first: `relu⁺ ((A · X) · W₁) b₁ · W₂`. -/
def firstAggFirst {m n f h1 h2 : ℕ} (A : Fin m → Fin n → EReal) (X : Fin n → Fin f → EReal) (W1 : Fin f → Fin h1 → EReal)
    (b1 : Fin h1 → EReal) (W2 : Fin h1 → Fin h2 → EReal) : Fin m → Fin h2 → EReal :=
  mmul (biasRelu (mmul (mmul A X) W1) b1) W2

/-- The first layer with the feature product first: `relu⁺ (A · (X · W₁)) b₁ · W₂`. -/
def firstFeatFirst {m n f h1 h2 : ℕ} (A : Fin m → Fin n → EReal) (X : Fin n → Fin f → EReal) (W1 : Fin f → Fin h1 → EReal)
    (b1 : Fin h1 → EReal) (W2 : Fin h1 → Fin h2 → EReal) : Fin m → Fin h2 → EReal :=
  mmul (biasRelu (mmul A (mmul X W1)) b1) W2

/-! ## Associativity of the product of real matrices, read in the extended reals -/

/-- A real matrix read in the extended reals. -/
def coeM (a : Fin M → Fin N → ℝ) : Fin M → Fin N → EReal := fun r c => ((a r c : ℝ) : EReal)

/-- The product of real matrices. -/
def rmul (a : Fin M → Fin K → ℝ) (b : Fin K → Fin N → ℝ) : Fin M → Fin N → ℝ := fun r c => ∑ k : Fin K, a r k * b k c

/-- The coercion from ℝ commutes with a finite sum. -/
theorem coe_sum {ι : Type} (s : Finset ι) (f : ι → ℝ) : (((∑ i ∈ s, f i) : ℝ) : EReal) = ∑ i ∈ s, ((f i : ℝ) : EReal) := by
  classical
  induction s using Finset.induction_on with
  | empty => simp
  | insert a s ha ih => rw [Finset.sum_insert ha, Finset.sum_insert ha, EReal.coe_add, ih]

/-- The product of two real matrices read in the extended reals is their real product. -/
theorem mmul_coe (a : Fin M → Fin K → ℝ) (b : Fin K → Fin N → ℝ) : mmul (coeM a) (coeM b) = coeM (rmul a b) := by
  funext r c
  show ∑ k : Fin K, ((a r k : ℝ) : EReal) * ((b k c : ℝ) : EReal) = (((∑ k : Fin K, a r k * b k c) : ℝ) : EReal)
  rw [coe_sum]
  exact Finset.sum_congr rfl fun k _ => (EReal.coe_mul _ _).symm

/-- Over ℝ the matrix product is associative: each side is the double sum of the triple products. -/
theorem rmul_assoc (a : Fin M → Fin K → ℝ) (x : Fin K → Fin L → ℝ) (w : Fin L → Fin N → ℝ) :
    rmul (rmul a x) w = rmul a (rmul x w) := by
  funext r c
  show ∑ l : Fin L, (∑ k : Fin K, a r k * x k l) * w l c = ∑ k : Fin K, a r k * ∑ l : Fin L, x k l * w l c
  simp only [Finset.sum_mul, Finset.mul_sum]
  rw [Finset.sum_comm]
  exact Finset.sum_congr rfl fun k _ => Finset.sum_congr rfl fun l _ => mul_assoc _ _ _

/-- Matrices whose entries are all real numbers associate under the product of the extended reals. -/
theorem mmul_assoc_of_real (A : Fin M → Fin K → EReal) (X : Fin K → Fin L → EReal) (W : Fin L → Fin N → EReal)
    (hA : ∀ r k, ∃ a : ℝ, A r k = (a : EReal)) (hX : ∀ k l, ∃ a : ℝ, X k l = (a : EReal))
    (hW : ∀ l c, ∃ a : ℝ, W l c = (a : EReal)) :
    mmul (mmul A X) W = mmul A (mmul X W) := by
  choose a ha using hA
  choose x hx using hX
  choose w hw using hW
  have eA : A = coeM a := funext fun r => funext fun k => ha r k
  have eX : X = coeM x := funext fun r => funext fun k => hx r k
  have eW : W = coeM w := funext fun r => funext fun k => hw r k
  rw [eA, eX, eW, mmul_coe, mmul_coe, mmul_coe, mmul_coe, rmul_assoc]

/-- So the two orders of the first layer agree on real inputs. -/
theorem firstAggFirst_eq_firstFeatFirst {m n f h1 h2 : ℕ} (A : Fin m → Fin n → EReal) (X : Fin n → Fin f → EReal)
    (W1 : Fin f → Fin h1 → EReal) (b1 : Fin h1 → EReal) (W2 : Fin h1 → Fin h2 → EReal)
    (hA : ∀ r k, ∃ a : ℝ, A r k = (a : EReal)) (hX : ∀ k l, ∃ a : ℝ, X k l = (a : EReal))
    (hW : ∀ l c, ∃ a : ℝ, W1 l c = (a : EReal)) :
    firstAggFirst A X W1 b1 W2 = firstFeatFirst A X W1 b1 W2 := by
  unfold firstAggFirst firstFeatFirst
  rw [mmul_assoc_of_real A X W1 hA hX hW]

/-! ## Arrays as matrices -/

/-- A rank-two array read as a matrix. -/
def toMat (X : (⟨2, ![M, N]⟩ : Shape).Idx → EReal) : Fin M → Fin N → EReal := fun r c => X (ix2 r c)
/-- A rank-one array read as a row. -/
def toRow (b : (⟨1, ![N]⟩ : Shape).Idx → EReal) : Fin N → EReal := fun c => b (ix1 c)
/-- A matrix laid out as a rank-two array. -/
def ofMat (Z : Fin M → Fin N → EReal) : (⟨2, ![M, N]⟩ : Shape).Idx → EReal := fun j => Z (j 0) (j 1)

theorem ofMat_ix2 (Z : Fin M → Fin N → EReal) (r : Fin M) (c : Fin N) : ofMat Z (ix2 r c) = Z r c := rfl

theorem toMat_ofMat (Z : Fin M → Fin N → EReal) : toMat (ofMat Z) = Z := rfl

/-- An array is the layout of a matrix as soon as it is so entry by entry. -/
theorem eq_ofMat (X : (⟨2, ![M, N]⟩ : Shape).Idx → EReal) (Z : Fin M → Fin N → EReal)
    (h : ∀ r c, X (ix2 r c) = Z r c) : X = ofMat Z := by
  funext j
  rw [eq_ix2 j]
  exact h _ _

end Cert.Gcn

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.LibKeepdims.lean ====
/-
  A COLUMN KEPT AS A UNIT AXIS: two layout operations read at an index.

  A reduction along the last axis of an `[a, b]` matrix gives an `[a]` vector; keeping the reduced axis as a unit axis
  casts it to `[a, 1]`, and using it against the matrix again broadcasts that column to `[a, b]`. At an index:
    * the cast  `[a] → [a, 1]`  reads, at `(i, u)`, the vector at `i` (row-major position `i * 1 + u = i`);
    * the broadcast `[a, 1] → [a, b]` reads, at `(p, c)`, the column at `(p, 0)`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.MatOps.lean ====
/-
  VECTOR OPERATIONS READ AS MATRIX OPERATIONS, at the exact instance.

  The kernels' bodies and the host program are written over arrays indexed by coordinate tuples; the specification is
  written over matrices. This module reads the array operations the four layers use as the specification's:
    * a vector unit's product of an [M, K] array with a [K, N] array into a zero accumulator is the matrix product;
    * adding a [1, N] bias row broadcast over the rows and taking the maximum with a splat of zero is `biasRelu`
      (and without the maximum, `addBias`);
    * the row maximum from −∞ kept as a unit column and broadcast back, the shifted exponentials' row sum from zero kept
      the same way, its logarithm, and the two subtractions are `logSoftmax`.
-/
import proofs.«179443_g1520418423397_cont_week2b_307_4_alg».proof.Proof.Spec
import proofs.«179443_g1520418423397_cont_week2b_307_4_alg».proof.Proof.LibPlainDot
import proofs.«179443_g1520418423397_cont_week2b_307_4_alg».proof.Proof.LibKeepdims
import Idealize.ShloMosaic.Lib.ValueLayout
import Idealize.ShloMosaic.Lib.Pipeline.Value
import Idealize.ShloMosaic.PureOps.Ideal.Laws

noncomputable section

open scoped BigOperators

namespace Cert.Gcn

open Idealize.ShloMosaic Idealize.ShloMosaic.ValueIdx

variable {M K N : ℕ}

/-- The dimension numbers of a plain product of an [M, K] array with a [K, N] array: one contraction coordinate of
    extent K, and at result entry (r, c) and contraction position k the operands are read at (r, k) and (k, c). -/
structure IsPlain (d : DotDims ⟨2, ![M, K]⟩ ⟨2, ![K, N]⟩ ⟨2, ![M, N]⟩) : Prop where
  hr : d.contr.rank = 1
  hs : d.contr.size ⟨0, by omega⟩ = K
  h1 : ∀ (j : (⟨2, ![M, N]⟩ : Shape).Idx) (k : d.contr.Idx), (d.lhsIdx j k 0).val = (j 0).val
  h2 : ∀ (j : (⟨2, ![M, N]⟩ : Shape).Idx) (k : d.contr.Idx), (d.lhsIdx j k 1).val = (k ⟨0, by omega⟩).val
  h3 : ∀ (j : (⟨2, ![M, N]⟩ : Shape).Idx) (k : d.contr.Idx), (d.rhsIdx j k 0).val = (k ⟨0, by omega⟩).val
  h4 : ∀ (j : (⟨2, ![M, N]⟩ : Shape).Idx) (k : d.contr.Idx), (d.rhsIdx j k 1).val = (j 1).val

/-- A vector unit's plain product into the zero accumulator is the matrix product. -/
theorem matmul_zero_toMat {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) :
    toMat (matmul d prec lhs rhs (constant ⟨2, ![M, N]⟩ .f32 0x00000000#32)) = mmul (toMat lhs) (toMat rhs) := by
  funext r c
  show FloatOps.matmul d prec lhs rhs (constant ⟨2, ![M, N]⟩ .f32 0x00000000#32) (ix2 r c) = ∑ k : Fin K, lhs (ix2 r k) * rhs (ix2 k c)
  rw [Ideal.matmul_constant_zero_apply]
  exact PlainDot.contraction_eq_sum d hd.hr hd.hs hd.h1 hd.h2 hd.h3 hd.h4 lhs rhs r c

/-- The one row of a [1, N] array. -/
def rowOf (b : (⟨2, ![1, N]⟩ : Shape).Idx → EReal) : Fin N → EReal := fun c => b (ix2 (0 : Fin 1) c)

/-- A bias row broadcast over the rows and added. -/
theorem addBias_toMat (H : FVec Ideal ⟨2, ![M, N]⟩ .f32) (b : FVec Ideal ⟨2, ![1, N]⟩ .f32)
    (hb : (⟨2, ![1, N]⟩ : Shape).Broadcasts ⟨2, ![M, N]⟩) :
    toMat (addf H (broadcastTo ⟨2, ![M, N]⟩ b hb)) = addBias (toMat H) (rowOf b) := by
  funext r c
  show H (ix2 r c) + broadcastTo ⟨2, ![M, N]⟩ b hb (ix2 r c) = H (ix2 r c) + b (ix2 (0 : Fin 1) c)
  rw [broadcastTo_1b_ab_apply]

/-- A bias row broadcast over the rows and added, then the maximum with a splat of the zero word. -/
theorem biasRelu_toMat (H : FVec Ideal ⟨2, ![M, N]⟩ .f32) (b : FVec Ideal ⟨2, ![1, N]⟩ .f32)
    (hb : (⟨2, ![1, N]⟩ : Shape).Broadcasts ⟨2, ![M, N]⟩) :
    toMat (maximumf (addf H (broadcastTo ⟨2, ![M, N]⟩ b hb)) (broadcast ⟨2, ![M, N]⟩ (Scalar.ofBits (F := Ideal) .f32 0x00000000#32)))
      = biasRelu (toMat H) (rowOf b) := by
  funext r c
  show max (H (ix2 r c) + broadcastTo ⟨2, ![M, N]⟩ b hb (ix2 r c)) (Ideal.ofBits .f32 0x00000000#32) = max (H (ix2 r c) + b (ix2 (0 : Fin 1) c)) zero32
  rw [broadcastTo_1b_ab_apply]

/-- The reduced index `r` of a reduction along the columns, with column `k` put back, is `(r, k)`. -/
theorem lift_cols (h : (⟨2, ![M, N]⟩ : Shape).Reduces [1] (⟨1, ![M]⟩ : Shape)) (r : Fin M)
    (k : Fin ((⟨2, ![M, N]⟩ : Shape).size 1)) : h.lift (ix1 r) k = ix2 r (⟨k.val, k.isLt⟩ : Fin N) := by
  funext a; apply Fin.ext
  match a with
  | ⟨0, _⟩ => rfl
  | ⟨1, _⟩ => rfl

/-- The row maximum from −∞ along the columns. -/
theorem rowMax_of_multiReduction (Z : FVec Ideal ⟨2, ![M, N]⟩ .f32) (h : (⟨2, ![M, N]⟩ : Shape).Reduces [1] (⟨1, ![M]⟩ : Shape))
    (hφ : FKind.Formats .f32) (hacc : (0xFF800000#32 : BitVec 32) = FKind.maximumf.neutral .f32 hφ) (r : Fin M) :
    multiReduction .maximumf [1] ⟨1, ![M]⟩ Z 0xFF800000#32 h hφ hacc (ix1 r) = rowMax (toMat Z) r := by
  rw [Ideal.multiReduction_maximumf_single]
  show (Finset.univ : Finset (Fin N)).fold max (Ideal.ofBits .f32 0xFF800000#32) (Z ∘ h.lift (ix1 r)) = _
  unfold rowMax
  exact congrArg (fun f => Finset.fold max (Ideal.ofBits .f32 0xFF800000#32) f (Finset.univ : Finset (Fin N)))
    (funext fun k => congrArg Z (lift_cols h r k))

/-- The row sum from zero along the columns. -/
theorem rowSum_of_multiReduction (Z : FVec Ideal ⟨2, ![M, N]⟩ .f32) (h : (⟨2, ![M, N]⟩ : Shape).Reduces [1] (⟨1, ![M]⟩ : Shape))
    (hφ : FKind.Formats .f32) (hacc : (0x00000000#32 : BitVec 32) = FKind.add.neutral .f32 hφ) (r : Fin M) :
    multiReduction .add [1] ⟨1, ![M]⟩ Z 0x00000000#32 h hφ hacc (ix1 r) = ∑ k : Fin N, Z (ix2 r k) := by
  rw [Ideal.multiReduction_add_single]
  show ∑ k : Fin N, Z (h.lift (ix1 r) k) = _
  exact Finset.sum_congr rfl fun k _ => congrArg Z (lift_cols h r k)

/-- The shifted log-softmax as a kernel body spells it: the row maximum from −∞ and the row sum of the shifted
    exponentials from zero, each cast to a unit column and broadcast back over the columns. -/
theorem logSoftmax_toMat (Z : FVec Ideal ⟨2, ![M, N]⟩ .f32)
    (h : (⟨2, ![M, N]⟩ : Shape).Reduces [1] (⟨1, ![M]⟩ : Shape))
    (hφm : FKind.Formats .f32) (haccm : (0xFF800000#32 : BitVec 32) = FKind.maximumf.neutral .f32 hφm)
    (hφs : FKind.Formats .f32) (haccs : (0x00000000#32 : BitVec 32) = FKind.add.neutral .f32 hφs)
    (hc : (⟨1, ![M]⟩ : Shape).ShapeCasts ⟨2, ![M, 1]⟩) (hb : (⟨2, ![M, 1]⟩ : Shape).Broadcasts ⟨2, ![M, N]⟩) :
    toMat (subf (subf Z (broadcastTo ⟨2, ![M, N]⟩ (shapeCast ⟨2, ![M, 1]⟩ (multiReduction .maximumf [1] ⟨1, ![M]⟩ Z 0xFF800000#32 h hφm haccm) hc) hb))
        (broadcastTo ⟨2, ![M, N]⟩ (log (shapeCast ⟨2, ![M, 1]⟩
          (multiReduction .add [1] ⟨1, ![M]⟩
            (exp (subf Z (broadcastTo ⟨2, ![M, N]⟩ (shapeCast ⟨2, ![M, 1]⟩ (multiReduction .maximumf [1] ⟨1, ![M]⟩ Z 0xFF800000#32 h hφm haccm) hc) hb)))
            0x00000000#32 h hφs haccs) hc)) hb))
      = logSoftmax (toMat Z) := by
  -- the shifted array, entry by entry
  have hshift : ∀ (r : Fin M) (c : Fin N),
      subf Z (broadcastTo ⟨2, ![M, N]⟩ (shapeCast ⟨2, ![M, 1]⟩ (multiReduction .maximumf [1] ⟨1, ![M]⟩ Z 0xFF800000#32 h hφm haccm) hc) hb) (ix2 r c)
        = Z (ix2 r c) - rowMax (toMat Z) r := by
    intro r c
    show Z (ix2 r c) - broadcastTo ⟨2, ![M, N]⟩ (shapeCast ⟨2, ![M, 1]⟩ (multiReduction .maximumf [1] ⟨1, ![M]⟩ Z 0xFF800000#32 h hφm haccm) hc) hb (ix2 r c) = _
    rw [Keepdims.broadcastTo_a1_ab_apply, Keepdims.shapeCast_a_a1_apply, rowMax_of_multiReduction]
  funext r c
  show subf Z (broadcastTo ⟨2, ![M, N]⟩ (shapeCast ⟨2, ![M, 1]⟩ (multiReduction .maximumf [1] ⟨1, ![M]⟩ Z 0xFF800000#32 h hφm haccm) hc) hb) (ix2 r c)
      - broadcastTo ⟨2, ![M, N]⟩ (log (shapeCast ⟨2, ![M, 1]⟩
          (multiReduction .add [1] ⟨1, ![M]⟩
            (exp (subf Z (broadcastTo ⟨2, ![M, N]⟩ (shapeCast ⟨2, ![M, 1]⟩ (multiReduction .maximumf [1] ⟨1, ![M]⟩ Z 0xFF800000#32 h hφm haccm) hc) hb)))
            0x00000000#32 h hφs haccs) hc)) hb (ix2 r c)
    = (Z (ix2 r c) - rowMax (toMat Z) r) - Ideal.log (∑ k : Fin N, Ideal.exp (Z (ix2 r k) - rowMax (toMat Z) r))
  rw [hshift r c, Keepdims.broadcastTo_a1_ab_apply]
  show _ - Ideal.log (shapeCast ⟨2, ![M, 1]⟩ (multiReduction .add [1] ⟨1, ![M]⟩
            (exp (subf Z (broadcastTo ⟨2, ![M, N]⟩ (shapeCast ⟨2, ![M, 1]⟩ (multiReduction .maximumf [1] ⟨1, ![M]⟩ Z 0xFF800000#32 h hφm haccm) hc) hb)))
            0x00000000#32 h hφs haccs) hc (ix2 r (0 : Fin 1))) = _
  rw [Keepdims.shapeCast_a_a1_apply, rowSum_of_multiReduction]
  refine congrArg (fun s => (Z (ix2 r c) - rowMax (toMat Z) r) - Ideal.log s) (Finset.sum_congr rfl fun k _ => ?_)
  show Ideal.exp (subf Z (broadcastTo ⟨2, ![M, N]⟩ (shapeCast ⟨2, ![M, 1]⟩ (multiReduction .maximumf [1] ⟨1, ![M]⟩ Z 0xFF800000#32 h hφm haccm) hc) hb) (ix2 r k)) = _
  rw [hshift r k]

end Cert.Gcn

end
-- ==== Proof.Payloads.lean ====
/-
  WHAT EACH KERNEL BODY STORES, as a matrix function of the blocks it loads.

  Every body loads a [400, 10000] strip of the graph matrix and the whole narrow operands, and stores one [400, ·] block.
  Read at the exact instance (a change of float format is the identity, a product into the zero accumulator the matrix
  product, the bias a [1, ·] row broadcast over the strip's rows):
    * the first body stores the strip unchanged (the narrowed copy of the graph matrix) and
      relu⁺ ((strip · X) · W₁) b₁ · W₂;
    * the two middle bodies store  relu⁺ (strip · S) b · W  (`layer`);
    * the last body stores the shifted log-softmax of  strip · S + b.
-/
import proofs.«179443_g1520418423397_cont_week2b_307_4_alg».proof.Proof.Gen.KernelIdeal.Skeleton
import proofs.«179443_g1520418423397_cont_week2b_307_4_alg».proof.Proof.MatOps

noncomputable section

namespace Cert.KernelIdeal.Payloads

open Cert.KernelIdeal Cert.KernelIdeal.Gen Cert.Gcn
open Idealize.ShloMosaic Idealize.ShloMosaic.ValueIdx

/-! ## The seven products are plain -/

theorem plain_d1 : IsPlain dot_S400x10000_S10000x128_S400x128_1_0_0_1_n_n where
  hr := rfl
  hs := rfl
  h1 := fun j k => by
    unfold DotDims.lhsIdx
    rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
    rfl
  h2 := fun j k => dot_S400x10000_S10000x128_S400x128_1_0_0_1_n_n.lhsIdx_val_of_single rfl j k
  h3 := fun j k => dot_S400x10000_S10000x128_S400x128_1_0_0_1_n_n.rhsIdx_val_of_single rfl j k
  h4 := fun j k => by
    unfold DotDims.rhsIdx
    rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
    rfl

theorem plain_d2 : IsPlain dot_S400x128_S128x600_S400x600_1_0_0_1_n_n where
  hr := rfl
  hs := rfl
  h1 := fun j k => by
    unfold DotDims.lhsIdx
    rw [dif_neg (show ¬(0 : Fin S400x128.rank) ∈ dot_S400x128_S128x600_S400x600_1_0_0_1_n_n.lhsBatch by decide), dif_pos (show (0 : Fin S400x128.rank) ∈ dot_S400x128_S128x600_S400x600_1_0_0_1_n_n.lhsNonContracting by decide)]
    rfl
  h2 := fun j k => dot_S400x128_S128x600_S400x600_1_0_0_1_n_n.lhsIdx_val_of_single rfl j k
  h3 := fun j k => dot_S400x128_S128x600_S400x600_1_0_0_1_n_n.rhsIdx_val_of_single rfl j k
  h4 := fun j k => by
    unfold DotDims.rhsIdx
    rw [dif_neg (show ¬(1 : Fin S128x600.rank) ∈ dot_S400x128_S128x600_S400x600_1_0_0_1_n_n.rhsBatch by decide), dif_pos (show (1 : Fin S128x600.rank) ∈ dot_S400x128_S128x600_S400x600_1_0_0_1_n_n.rhsNonContracting by decide)]
    rfl

theorem plain_d3 : IsPlain dot_S400x600_S600x16_S400x16_1_0_0_1_n_n where
  hr := rfl
  hs := rfl
  h1 := fun j k => by
    unfold DotDims.lhsIdx
    rw [dif_neg (show ¬(0 : Fin S400x600.rank) ∈ dot_S400x600_S600x16_S400x16_1_0_0_1_n_n.lhsBatch by decide), dif_pos (show (0 : Fin S400x600.rank) ∈ dot_S400x600_S600x16_S400x16_1_0_0_1_n_n.lhsNonContracting by decide)]
    rfl
  h2 := fun j k => dot_S400x600_S600x16_S400x16_1_0_0_1_n_n.lhsIdx_val_of_single rfl j k
  h3 := fun j k => dot_S400x600_S600x16_S400x16_1_0_0_1_n_n.rhsIdx_val_of_single rfl j k
  h4 := fun j k => by
    unfold DotDims.rhsIdx
    rw [dif_neg (show ¬(1 : Fin S600x16.rank) ∈ dot_S400x600_S600x16_S400x16_1_0_0_1_n_n.rhsBatch by decide), dif_pos (show (1 : Fin S600x16.rank) ∈ dot_S400x600_S600x16_S400x16_1_0_0_1_n_n.rhsNonContracting by decide)]
    rfl

theorem plain_d4 : IsPlain dot_S400x10000_S10000x16_S400x16_1_0_0_1_n_n where
  hr := rfl
  hs := rfl
  h1 := fun j k => by
    unfold DotDims.lhsIdx
    rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
    rfl
  h2 := fun j k => dot_S400x10000_S10000x16_S400x16_1_0_0_1_n_n.lhsIdx_val_of_single rfl j k
  h3 := fun j k => dot_S400x10000_S10000x16_S400x16_1_0_0_1_n_n.rhsIdx_val_of_single rfl j k
  h4 := fun j k => by
    unfold DotDims.rhsIdx
    rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
    rfl

theorem plain_d5 : IsPlain dot_S400x16_S16x4_S400x4_1_0_0_1_n_n where
  hr := rfl
  hs := rfl
  h1 := fun j k => by
    unfold DotDims.lhsIdx
    rw [dif_neg (show ¬(0 : Fin S400x16.rank) ∈ dot_S400x16_S16x4_S400x4_1_0_0_1_n_n.lhsBatch by decide), dif_pos (show (0 : Fin S400x16.rank) ∈ dot_S400x16_S16x4_S400x4_1_0_0_1_n_n.lhsNonContracting by decide)]
    rfl
  h2 := fun j k => dot_S400x16_S16x4_S400x4_1_0_0_1_n_n.lhsIdx_val_of_single rfl j k
  h3 := fun j k => dot_S400x16_S16x4_S400x4_1_0_0_1_n_n.rhsIdx_val_of_single rfl j k
  h4 := fun j k => by
    unfold DotDims.rhsIdx
    rw [dif_neg (show ¬(1 : Fin S16x4.rank) ∈ dot_S400x16_S16x4_S400x4_1_0_0_1_n_n.rhsBatch by decide), dif_pos (show (1 : Fin S16x4.rank) ∈ dot_S400x16_S16x4_S400x4_1_0_0_1_n_n.rhsNonContracting by decide)]
    rfl

theorem plain_d6 : IsPlain dot_S400x10000_S10000x4_S400x4_1_0_0_1_n_n where
  hr := rfl
  hs := rfl
  h1 := fun j k => by
    unfold DotDims.lhsIdx
    rw [dif_neg (show ¬(0 : Fin S400x10000.rank) ∈ dot_S400x10000_S10000x4_S400x4_1_0_0_1_n_n.lhsBatch by decide), dif_pos (show (0 : Fin S400x10000.rank) ∈ dot_S400x10000_S10000x4_S400x4_1_0_0_1_n_n.lhsNonContracting by decide)]
    rfl
  h2 := fun j k => dot_S400x10000_S10000x4_S400x4_1_0_0_1_n_n.lhsIdx_val_of_single rfl j k
  h3 := fun j k => dot_S400x10000_S10000x4_S400x4_1_0_0_1_n_n.rhsIdx_val_of_single rfl j k
  h4 := fun j k => by
    unfold DotDims.rhsIdx
    rw [dif_neg (show ¬(1 : Fin S10000x4.rank) ∈ dot_S400x10000_S10000x4_S400x4_1_0_0_1_n_n.rhsBatch by decide), dif_pos (show (1 : Fin S10000x4.rank) ∈ dot_S400x10000_S10000x4_S400x4_1_0_0_1_n_n.rhsNonContracting by decide)]
    rfl

theorem plain_d7 : IsPlain dot_S400x4_S4x16_S400x16_1_0_0_1_n_n where
  hr := rfl
  hs := rfl
  h1 := fun j k => by
    unfold DotDims.lhsIdx
    rw [dif_neg (show ¬(0 : Fin S400x4.rank) ∈ dot_S400x4_S4x16_S400x16_1_0_0_1_n_n.lhsBatch by decide), dif_pos (show (0 : Fin S400x4.rank) ∈ dot_S400x4_S4x16_S400x16_1_0_0_1_n_n.lhsNonContracting by decide)]
    rfl
  h2 := fun j k => dot_S400x4_S4x16_S400x16_1_0_0_1_n_n.lhsIdx_val_of_single rfl j k
  h3 := fun j k => dot_S400x4_S4x16_S400x16_1_0_0_1_n_n.rhsIdx_val_of_single rfl j k
  h4 := fun j k => by
    unfold DotDims.rhsIdx
    rw [dif_neg (show ¬(1 : Fin S4x16.rank) ∈ dot_S400x4_S4x16_S400x16_1_0_0_1_n_n.rhsBatch by decide), dif_pos (show (1 : Fin S4x16.rank) ∈ dot_S400x4_S4x16_S400x16_1_0_0_1_n_n.rhsNonContracting by decide)]
    rfl

/-! ## The payloads -/

/-- The narrowed copy of the strip is the strip. -/
theorem k0_pay1_eq (v0 : Vec Ideal S400x10000 .f32) : k0_pay1 (F := Ideal) v0 = v0 := rfl

/-- The first body's projected output. -/
theorem k0_pay2_toMat (v0 : Vec Ideal S400x10000 .f32) (v3 : Vec Ideal S10000x128 .bf16) (v6 : Vec Ideal S128x600 .f32)
    (v8 : Vec Ideal S1x600 .f32) (v14 : Vec Ideal S600x16 .f32) :
    toMat (k0_pay2 (F := Ideal) v0 v3 v6 v8 v14) = firstAggFirst (toMat v0) (toMat v3) (toMat v6) (rowOf v8) (toMat v14) := by
  show toMat (matmul dot_S400x600_S600x16_S400x16_1_0_0_1_n_n none
      (maximumf (addf (matmul dot_S400x128_S128x600_S400x600_1_0_0_1_n_n none
          (matmul dot_S400x10000_S10000x128_S400x128_1_0_0_1_n_n none (truncf .bf16 v0 bitsLt_bf16_f32) (shapeCast S10000x128 v3 shapeCasts_S10000x128_S10000x128) (constant S400x128 .f32 0x00000000#32))
          v6 (constant S400x600 .f32 0x00000000#32))
        (broadcastTo S400x600 (shapeCast S1x600 v8 shapeCasts_S1x600_S1x600) broadcasts_S1x600_S400x600))
        (broadcast S400x600 (Scalar.ofBits (F := Ideal) .f32 0x00000000#32)))
      v14 (constant S400x16 .f32 0x00000000#32)) = _
  rw [matmul_zero_toMat _ plain_d3, biasRelu_toMat, matmul_zero_toMat _ plain_d2, matmul_zero_toMat _ plain_d1,
    shapeCast_self, shapeCast_self]
  rfl

/-- The second body's output: one layer over 16 features projected to 4. -/
theorem k1_pay1_toMat (v0 : Vec Ideal S400x10000 .bf16) (v2 : Vec Ideal S10000x16 .bf16) (v5 : Vec Ideal S1x16 .f32)
    (v11 : Vec Ideal S16x4 .f32) :
    toMat (k1_pay1 (F := Ideal) v0 v2 v5 v11) = layer (toMat v0) (toMat v2) (rowOf v5) (toMat v11) := by
  show toMat (matmul dot_S400x16_S16x4_S400x4_1_0_0_1_n_n none
      (maximumf (addf (matmul dot_S400x10000_S10000x16_S400x16_1_0_0_1_n_n none (shapeCast S400x10000 v0 shapeCasts_S400x10000_S400x10000) (shapeCast S10000x16 v2 shapeCasts_S10000x16_S10000x16) (constant S400x16 .f32 0x00000000#32))
        (broadcastTo S400x16 (shapeCast S1x16 v5 shapeCasts_S1x16_S1x16) broadcasts_S1x16_S400x16))
        (broadcast S400x16 (Scalar.ofBits (F := Ideal) .f32 0x00000000#32)))
      v11 (constant S400x4 .f32 0x00000000#32)) = _
  rw [matmul_zero_toMat _ plain_d5, biasRelu_toMat, matmul_zero_toMat _ plain_d4, shapeCast_self, shapeCast_self, shapeCast_self]
  rfl

/-- The third body's output: one layer over 4 features projected to 16. -/
theorem k2_pay1_toMat (v0 : Vec Ideal S400x10000 .bf16) (v2 : Vec Ideal S10000x4 .bf16) (v5 : Vec Ideal S1x4 .f32)
    (v11 : Vec Ideal S4x16 .f32) :
    toMat (k2_pay1 (F := Ideal) v0 v2 v5 v11) = layer (toMat v0) (toMat v2) (rowOf v5) (toMat v11) := by
  show toMat (matmul dot_S400x4_S4x16_S400x16_1_0_0_1_n_n none
      (maximumf (addf (matmul dot_S400x10000_S10000x4_S400x4_1_0_0_1_n_n none (shapeCast S400x10000 v0 shapeCasts_S400x10000_S400x10000) (shapeCast S10000x4 v2 shapeCasts_S10000x4_S10000x4) (constant S400x4 .f32 0x00000000#32))
        (broadcastTo S400x4 (shapeCast S1x4 v5 shapeCasts_S1x4_S1x4) broadcasts_S1x4_S400x4))
        (broadcast S400x4 (Scalar.ofBits (F := Ideal) .f32 0x00000000#32)))
      v11 (constant S400x16 .f32 0x00000000#32)) = _
  rw [matmul_zero_toMat _ plain_d7, biasRelu_toMat, matmul_zero_toMat _ plain_d6, shapeCast_self, shapeCast_self, shapeCast_self]
  rfl

/-- The last body's output: the shifted log-softmax of the aggregated features plus the bias. -/
theorem k3_pay1_toMat (v0 : Vec Ideal S400x10000 .bf16) (v2 : Vec Ideal S10000x16 .bf16) (v5 : Vec Ideal S1x16 .f32) :
    toMat (k3_pay1 (F := Ideal) v0 v2 v5) = logSoftmax (addBias (mmul (toMat v0) (toMat v2)) (rowOf v5)) := by
  have hz : toMat (addf (F := Ideal) (matmul (φ₁ := .bf16) (φ₂ := .bf16) dot_S400x10000_S10000x16_S400x16_1_0_0_1_n_n none (shapeCast S400x10000 v0 shapeCasts_S400x10000_S400x10000) (shapeCast S10000x16 v2 shapeCasts_S10000x16_S10000x16) (constant S400x16 .f32 0x00000000#32))
        (broadcastTo S400x16 (shapeCast S1x16 v5 shapeCasts_S1x16_S1x16) broadcasts_S1x16_S400x16))
      = addBias (mmul (toMat v0) (toMat v2)) (rowOf v5) := by
    rw [addBias_toMat, matmul_zero_toMat _ plain_d4, shapeCast_self, shapeCast_self, shapeCast_self]
  rw [← hz]
  exact logSoftmax_toMat _ reduces_S400x16_S400 (.inl rfl) rfl (.inl rfl) rfl shapeCasts_S400_S400x1 broadcasts_S400x1_S400x16

end Cert.KernelIdeal.Payloads

end
-- ==== Proof.RowLocal.lean ====
/-
  ROW LOCALITY: row r of each layer's output reads the graph matrix only through its row r.

  A pipelined body sees a strip of rows of the graph matrix; what it stores into row r of its block is what the whole
  computation puts in the corresponding row of the whole output. Stated for two left factors A (M rows) and A' (M' rows)
  whose rows r and r' agree: the product with a common right factor, the bias and rectification, a whole layer, the first
  layer in its aggregation-first order, and the log-softmax of the aggregated features plus bias all agree on those rows.
-/
import proofs.«179443_g1520418423397_cont_week2b_307_4_alg».proof.Proof.Spec

noncomputable section

open scoped BigOperators

namespace Cert.Gcn

open Idealize.ShloMosaic

variable {M M' K L N : ℕ}

theorem mmul_row (A : Fin M → Fin K → EReal) (A' : Fin M' → Fin K → EReal) (B : Fin K → Fin N → EReal) (r : Fin M) (r' : Fin M')
    (h : ∀ k, A r k = A' r' k) (c : Fin N) : mmul A B r c = mmul A' B r' c :=
  Finset.sum_congr rfl fun k _ => by rw [h k]

theorem biasRelu_row (H : Fin M → Fin N → EReal) (H' : Fin M' → Fin N → EReal) (b : Fin N → EReal) (r : Fin M) (r' : Fin M')
    (h : ∀ c, H r c = H' r' c) (c : Fin N) : biasRelu H b r c = biasRelu H' b r' c := by
  unfold biasRelu; rw [h c]

theorem addBias_row (H : Fin M → Fin N → EReal) (H' : Fin M' → Fin N → EReal) (b : Fin N → EReal) (r : Fin M) (r' : Fin M')
    (h : ∀ c, H r c = H' r' c) (c : Fin N) : addBias H b r c = addBias H' b r' c := by
  unfold addBias; rw [h c]

theorem layer_row (A : Fin M → Fin K → EReal) (A' : Fin M' → Fin K → EReal) (S : Fin K → Fin L → EReal) (b : Fin L → EReal)
    (W : Fin L → Fin N → EReal) (r : Fin M) (r' : Fin M') (h : ∀ k, A r k = A' r' k) (c : Fin N) :
    layer A S b W r c = layer A' S b W r' c :=
  mmul_row _ _ W r r' (fun l => biasRelu_row _ _ b r r' (fun l' => mmul_row A A' S r r' h l') l) c

theorem firstAggFirst_row {f h1 : ℕ} (A : Fin M → Fin K → EReal) (A' : Fin M' → Fin K → EReal) (X : Fin K → Fin f → EReal)
    (W1 : Fin f → Fin h1 → EReal) (b1 : Fin h1 → EReal) (W2 : Fin h1 → Fin N → EReal) (r : Fin M) (r' : Fin M')
    (h : ∀ k, A r k = A' r' k) (c : Fin N) :
    firstAggFirst A X W1 b1 W2 r c = firstAggFirst A' X W1 b1 W2 r' c :=
  mmul_row _ _ W2 r r' (fun l => biasRelu_row _ _ b1 r r' (fun l' => mmul_row _ _ W1 r r' (fun j => mmul_row A A' X r r' h j) l') l) c

theorem rowMax_row (Z : Fin M → Fin N → EReal) (Z' : Fin M' → Fin N → EReal) (r : Fin M) (r' : Fin M')
    (h : ∀ c, Z r c = Z' r' c) : rowMax Z r = rowMax Z' r' := by
  unfold rowMax
  exact congrArg (fun f => Finset.fold max negInf f (Finset.univ : Finset (Fin N))) (funext h)

theorem logSoftmax_row (Z : Fin M → Fin N → EReal) (Z' : Fin M' → Fin N → EReal) (r : Fin M) (r' : Fin M')
    (h : ∀ c, Z r c = Z' r' c) (c : Fin N) : logSoftmax Z r c = logSoftmax Z' r' c := by
  unfold logSoftmax
  rw [rowMax_row Z Z' r r' h, h c]
  exact congrArg (fun s => (Z' r' c - rowMax Z' r') - Ideal.log s) (Finset.sum_congr rfl fun k _ => by rw [h k])

/-- The last layer: the log-softmax of the aggregated features plus the bias. -/
theorem lastLayer_row (A : Fin M → Fin K → EReal) (A' : Fin M' → Fin K → EReal) (S : Fin K → Fin N → EReal) (b : Fin N → EReal)
    (r : Fin M) (r' : Fin M') (h : ∀ k, A r k = A' r' k) (c : Fin N) :
    logSoftmax (addBias (mmul A S) b) r c = logSoftmax (addBias (mmul A' S) b) r' c :=
  logSoftmax_row _ _ r r' (fun c' => addBias_row _ _ b r r' (fun c'' => mmul_row A A' S r r' h c'') c') c

end Cert.Gcn

end
-- ==== Proof.Region0.lean ====
/-
  THE FIRST REGION'S TWO OUTPUT ARRAYS: the first layer's projected output, and a narrowed copy of the graph matrix.

  Point t loads rows [400 t, 400 t + 400) of the graph matrix and the whole of the features, the two weight matrices and
  the bias row; it writes back the same rows of relu⁺ ((A · X) · W₁) b₁ · W₂, and the strip itself (in the narrower float
  format, which at the exact instance is the same numbers) as the same rows of the copy. A row of the products reads only
  the matching row of the graph matrix, and the 25 blocks tile each output: the first ends at the aggregation-first first
  layer of the arrays the region found, the second at the graph matrix itself.
-/
import proofs.«179443_g1520418423397_cont_week2b_307_4_alg».proof.Proof.Gen.KernelIdeal.Frame
import proofs.«179443_g1520418423397_cont_week2b_307_4_alg».proof.Proof.Payloads
import proofs.«179443_g1520418423397_cont_week2b_307_4_alg».proof.Proof.RowLocal
import Idealize.ShloMosaic.Lib.Pipeline.Value

set_option maxRecDepth 16384

noncomputable section

namespace Cert.KernelIdeal.Region0

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the strip of the graph matrix and the output block move down with the
    point, 400 rows at a time; every other operand is its whole array at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- What the region's output array ends holding, as one function of the arrays the region finds. -/
def G (c : Dev nD) : S10000x16.Idx → EReal :=
  ofMat (firstAggFirst (toMat (V c main_arg1 : S10000x10000.Idx → EReal)) (toMat (V c main_call0_v0 : S10000x128.Idx → EReal)) (toMat (V c main_arg2 : S128x600.Idx → EReal)) (rowOf (V c main_call0_v1 : S1x600.Idx → EReal)) (toMat (V c main_arg4 : S600x16.Idx → EReal)))

/-- Rows of a strip are rows of the whole matrix: if the strip's entry at `y` is the matrix's at `e y`, where `e` shifts
    the row by `q` strips of 400 and keeps the column, then row `r` of the strip is row `q * 400 + r` of the matrix. -/
theorem strip_row (A : S10000x10000.Idx → EReal) (x0 : S400x10000.Idx → EReal) (e : S400x10000.Idx → S10000x10000.Idx) (q : ℕ)
    (he0 : ∀ y, (e y 0).val = q * 400 + (y 0).val) (he1 : ∀ y, (e y 1).val = (y 1).val) (hx : ∀ y, x0 y = A (e y))
    (r : Fin 400) (r' : Fin 10000) (hr : r'.val = q * 400 + r.val) (k : Fin 10000) : toMat x0 r k = toMat A r' k := by
  show x0 (ix2 r k) = A (ix2 r' k)
  rw [hx]
  refine congrArg A (funext fun a => Fin.ext ?_)
  match a with
  | ⟨0, _⟩ => exact (he0 _).trans hr.symm
  | ⟨1, _⟩ => exact he1 _

/-- One entry of one block: the body's stored value at `j` is the whole first layer's value at the array index `i` that
    `j` is embedded at. -/
theorem point_eq (A : S10000x10000.Idx → EReal) (X : S10000x128.Idx → EReal) (W1 : S128x600.Idx → EReal) (b : S1x600.Idx → EReal)
    (W2 : S600x16.Idx → EReal)
    (x0 : Vec Ideal S400x10000 .f32) (x1 : Vec Ideal S10000x128 .bf16) (x2 : Vec Ideal S128x600 .f32) (x3 : Vec Ideal S1x600 .f32)
    (x4 : Vec Ideal S600x16 .f32)
    (e : S400x10000.Idx → S10000x10000.Idx) (q : ℕ)
    (he0 : ∀ y, (e y 0).val = q * 400 + (y 0).val) (he1 : ∀ y, (e y 1).val = (y 1).val) (hx0 : ∀ y, x0 y = A (e y))
    (hx1 : x1 = X) (hx2 : x2 = W1) (hx3 : x3 = b) (hx4 : x4 = W2)
    (j : S400x16.Idx) (i : S10000x16.Idx) (hi0 : (i 0).val = q * 400 + (j 0).val) (hi1 : (i 1).val = (j 1).val) :
    k0_pay2 (F := Ideal) x0 x1 x2 x3 x4 j = ofMat (firstAggFirst (toMat A) (toMat X) (toMat W1) (rowOf b) (toMat W2)) i := by
  subst hx1 hx2 hx3 hx4
  have h1 : toMat (k0_pay2 (F := Ideal) x0 x1 x2 x3 x4) (j 0) (j 1) = firstAggFirst (toMat x0) (toMat x1) (toMat x2) (rowOf x3) (toMat x4) (j 0) (j 1) :=
    congrFun (congrFun (k0_pay2_toMat x0 x1 x2 x3 x4) (j 0)) (j 1)
  have h2 : k0_pay2 (F := Ideal) x0 x1 x2 x3 x4 j = toMat (k0_pay2 (F := Ideal) x0 x1 x2 x3 x4) (j 0) (j 1) :=
    congrArg (k0_pay2 (F := Ideal) x0 x1 x2 x3 x4) (eq_ix2 j)
  have h3 : (j 1 : Fin 16) = i 1 := Fin.ext hi1.symm
  refine h2.trans (h1.trans ?_)
  exact (firstAggFirst_row (toMat x0) (toMat A) (toMat x1) (toMat x2) (rowOf x3) (toMat x4) (j 0) (i 0)
      (strip_row A x0 e q he0 he1 hx0 (j 0) (i 0) hi0) (j 1)).trans
    (congrArg (firstAggFirst (toMat A) (toMat x1) (toMat x2) (rowOf x3) (toMat x4) (i 0)) h3)

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz, View.ld_unit_zero (S := S128x600) hz, View.ld_unit_zero (S := S1x600) hz, View.ld_unit_zero (S := S600x16) hz]
  obtain ⟨e0, e1, e2, e3, e4, e5, e6, e7, e8, e9, e10, e11, e12, e13⟩ := idx_facts t
  have hx1 : iblk0 V c 1 t = (V c main_call0_v0 : S10000x128.Idx → EReal) := by
    funext y
    show (V c main_call0_v0 : S10000x128.Idx → EReal) (((cfg0.win 1).blk t).view.emb y) = (V c main_call0_v0 : S10000x128.Idx → EReal) y
    refine congrArg _ (funext fun a => Fin.ext ?_)
    match a with
    | ⟨0, _⟩ => show win0_1.index t (0 : Fin 2) * 10000 + 1 * (y 0).val = (y 0).val; omega
    | ⟨1, _⟩ => show win0_1.index t (1 : Fin 2) * 128 + 1 * (y 1).val = (y 1).val; omega
  have hx2 : iblk0 V c 2 t = (V c main_arg2 : S128x600.Idx → EReal) := by
    funext y
    show (V c main_arg2 : S128x600.Idx → EReal) (((cfg0.win 2).blk t).view.emb y) = (V c main_arg2 : S128x600.Idx → EReal) y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 600 + 1 * (y 1).val = (y 1).val; omega
  have hx3 : iblk0 V c 3 t = (V c main_call0_v1 : S1x600.Idx → EReal) := by
    funext y
    show (V c main_call0_v1 : S1x600.Idx → EReal) (((cfg0.win 3).blk t).view.emb y) = (V c main_call0_v1 : S1x600.Idx → EReal) y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 600 + 1 * (y 1).val = (y 1).val; omega
  have hx4 : iblk0 V c 4 t = (V c main_arg4 : S600x16.Idx → EReal) := by
    funext y
    show (V c main_arg4 : S600x16.Idx → EReal) (((cfg0.win 4).blk t).view.emb y) = (V c main_arg4 : S600x16.Idx → EReal) y
    refine congrArg _ (funext fun a => Fin.ext ?_)
    match a with
    | ⟨0, _⟩ => show win0_4.index t (0 : Fin 2) * 600 + 1 * (y 0).val = (y 0).val; omega
    | ⟨1, _⟩ => show win0_4.index t (1 : Fin 2) * 16 + 1 * (y 1).val = (y 1).val; omega
  funext j
  refine point_eq (V c main_arg1 : S10000x10000.Idx → EReal) (V c main_call0_v0 : S10000x128.Idx → EReal) (V c main_arg2 : S128x600.Idx → EReal) (V c main_call0_v1 : S1x600.Idx → EReal) (V c main_arg4 : S600x16.Idx → EReal)
    (iblk0 V c 0 t) (iblk0 V c 1 t) (iblk0 V c 2 t) (iblk0 V c 3 t) (iblk0 V c 4 t)
    (fun y => ((cfg0.win 0).blk t).view.emb y) t.val ?_ ?_ (fun y => rfl) hx1 hx2 hx3 hx4 j (((cfg0.win 5).blk t).view.emb j) ?_ ?_
  · intro y; show win0_0.index t (0 : Fin 2) * 400 + 1 * (y 0).val = t.val * 400 + (y 0).val; omega
  · intro y; show win0_0.index t (1 : Fin 2) * 10000 + 1 * (y 1).val = (y 1).val; omega
  · show win0_5.index t (0 : Fin 2) * 400 + 1 * (j 0).val = t.val * 400 + (j 0).val; omega
  · show win0_5.index t (1 : Fin 2) * 16 + 1 * (j 1).val = (j 1).val; omega

/-- An index of the output array is in point `t`'s block iff each coordinate is in the block's range on its axis. -/
theorem mem_blk (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_call0_v2_0).slice (win0_5.rect t)).set ↔ _
  rw [View.set_slice_whole, Rect.mem_set_unit]
  exact Iff.rfl

/-- Every row of the output array lies in the block of the point `row / 400`. -/
theorem cover (i : S10000x16.Idx) : ∃ t : Fin cfg0.N, (cfg0.win 5).flush t = true ∧ i ∈ ((cfg0.win 5).blk t).view.set := by
  have hi0 : (i 0).val < 10000 := (i 0).isLt
  have hi1 : (i 1).val < 16 := (i 1).isLt
  have hN : grid0.N = 25 := N_0
  let t : Fin cfg0.N := ⟨(i 0).val / 400, by show (i 0).val / 400 < grid0.N; rw [hN]; omega⟩
  have ht : t.val = (i 0).val / 400 := rfl
  obtain ⟨e0, e1, e2, e3, e4, e5, e6, e7, e8, e9, e10, e11, e12, e13⟩ := idx_facts t
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 16 ≤ (i 1).val ∧ (i 1).val < win0_5.index t (1 : Fin 2) * 16 + 16; omega

/-- THE OUTPUT ARRAY after the region: `G` of the arrays the region found. -/
theorem final (c : Dev nD) : (dat0 V c).arrAt 5 cfg0.N = G V c :=
  (dat0 V c).arrAt_eq_of_cover 5 (G V c) (fun t _ => flushed_eq V c t) (cover)

/-! ## The second output: the narrowed copy of the graph matrix -/

/-- WHAT POINT `t` WRITES BACK to the copy is block `t` of the graph matrix itself: a change of float format is the
    identity, and the copy's block sits where the strip was read. -/
theorem flushed_copy_eq (c : Dev nD) (t : Fin cfg0.N) :
    (dat0 V c).flushed 6 t = ((cfg0.win 6).blk t).view.read (Elt Ideal) (V c main_arg1 : S10000x10000.Idx → EReal) := by
  show (cfg0.win 6).cut (grid0.coords t) ((dat0 V c).after 6 t) = _
  rw [after0_6]
  unfold out0_6
  rw [View.canon_unit_zero hz]
  simp only [View.ld_unit_zero (S := S400x10000) hz]
  obtain ⟨e0, e1, e2, e3, e4, e5, e6, e7, e8, e9, e10, e11, e12, e13⟩ := idx_facts t
  funext j
  show (V c main_arg1 : S10000x10000.Idx → EReal) (((cfg0.win 0).blk t).view.emb j) = (V c main_arg1 : S10000x10000.Idx → EReal) (((cfg0.win 6).blk t).view.emb j)
  refine congrArg _ (funext fun a => Fin.ext ?_)
  match a with
  | ⟨0, _⟩ => show win0_0.index t (0 : Fin 2) * 400 + 1 * (j 0).val = win0_6.index t (0 : Fin 2) * 400 + 1 * (j 0).val; omega
  | ⟨1, _⟩ => show win0_0.index t (1 : Fin 2) * 10000 + 1 * (j 1).val = win0_6.index t (1 : Fin 2) * 10000 + 1 * (j 1).val; omega

theorem mem_blk_copy (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_call0_v2_1).slice (win0_6.rect t)).set ↔ _
  rw [View.set_slice_whole, Rect.mem_set_unit]
  exact Iff.rfl

theorem cover_copy (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  have hN : grid0.N = 25 := N_0
  let t : Fin cfg0.N := ⟨(i 0).val / 400, by show (i 0).val / 400 < grid0.N; rw [hN]; omega⟩
  have ht : t.val = (i 0).val / 400 := rfl
  obtain ⟨e0, e1, e2, e3, e4, e5, e6, e7, e8, e9, e10, e11, e12, e13⟩ := idx_facts t
  refine ⟨t, flush0_6 t, ?_⟩
  rw [mem_blk_copy]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 10000 ≤ (i 1).val ∧ (i 1).val < win0_6.index t (1 : Fin 2) * 10000 + 10000; omega

/-- THE COPY after the region is the graph matrix the region found. -/
theorem final_copy (c : Dev nD) : (dat0 V c).arrAt 6 cfg0.N = (V c main_arg1 : S10000x10000.Idx → EReal) :=
  (dat0 V c).arrAt_eq_of_cover 6 (V c main_arg1 : S10000x10000.Idx → EReal) (fun t _ => flushed_copy_eq V c t) (cover_copy)

end Cert.KernelIdeal.Region0

end
-- ==== Proof.Region1.lean ====
/-
  THE SECOND REGION'S OUTPUT ARRAY: one graph-convolution layer over the 16 features, projected to 4.

  The region walks 25 grid points; point t loads rows [400 t, 400 t + 400) of the graph matrix and the whole of the other
  operands, and writes back rows [400 t, 400 t + 400) of the output. What it writes is, row by row, the layer computed
  with the whole graph matrix (a row of a product reads only the matching row of its left factor), and the 25 blocks
  tile the output: so the array ends at relu⁺ (A · S) b · W of the arrays the region found.
-/
import proofs.«179443_g1520418423397_cont_week2b_307_4_alg».proof.Proof.Gen.KernelIdeal.Frame
import proofs.«179443_g1520418423397_cont_week2b_307_4_alg».proof.Proof.Payloads
import proofs.«179443_g1520418423397_cont_week2b_307_4_alg».proof.Proof.RowLocal
import Idealize.ShloMosaic.Lib.Pipeline.Value

set_option maxRecDepth 16384

noncomputable section

namespace Cert.KernelIdeal.Region1

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the strip of the graph matrix and the output block move down with the
    point, 400 rows at a time; every other operand is its whole array at every point. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What the region's output array ends holding, as one function of the arrays the region finds. -/
def G (c : Dev nD) : S10000x4.Idx → EReal :=
  ofMat (layer (toMat (V c main_call0_v2_1 : S10000x10000.Idx → EReal)) (toMat (V c main_call0_v3 : S10000x16.Idx → EReal)) (rowOf (V c main_call0_v4 : S1x16.Idx → EReal)) (toMat (V c main_arg6 : S16x4.Idx → EReal)))

/-- Rows of a strip are rows of the whole matrix: if the strip's entry at `y` is the matrix's at `e y`, where `e` shifts
    the row by `q` strips of 400 and keeps the column, then row `r` of the strip is row `q * 400 + r` of the matrix. -/
theorem strip_row (A : S10000x10000.Idx → EReal) (x0 : S400x10000.Idx → EReal) (e : S400x10000.Idx → S10000x10000.Idx) (q : ℕ)
    (he0 : ∀ y, (e y 0).val = q * 400 + (y 0).val) (he1 : ∀ y, (e y 1).val = (y 1).val) (hx : ∀ y, x0 y = A (e y))
    (r : Fin 400) (r' : Fin 10000) (hr : r'.val = q * 400 + r.val) (k : Fin 10000) : toMat x0 r k = toMat A r' k := by
  show x0 (ix2 r k) = A (ix2 r' k)
  rw [hx]
  refine congrArg A (funext fun a => Fin.ext ?_)
  match a with
  | ⟨0, _⟩ => exact (he0 _).trans hr.symm
  | ⟨1, _⟩ => exact he1 _

/-- One entry of one block: the body's stored value at `j` is the whole layer's value at the array index `i` that `j`
    is embedded at. -/
theorem point_eq (A : S10000x10000.Idx → EReal) (S : S10000x16.Idx → EReal) (b : S1x16.Idx → EReal) (W : S16x4.Idx → EReal)
    (x0 : Vec Ideal S400x10000 .bf16) (x1 : Vec Ideal S10000x16 .bf16) (x2 : Vec Ideal S1x16 .f32) (x3 : Vec Ideal S16x4 .f32)
    (e : S400x10000.Idx → S10000x10000.Idx) (q : ℕ)
    (he0 : ∀ y, (e y 0).val = q * 400 + (y 0).val) (he1 : ∀ y, (e y 1).val = (y 1).val) (hx0 : ∀ y, x0 y = A (e y))
    (hx1 : x1 = S) (hx2 : x2 = b) (hx3 : x3 = W)
    (j : S400x4.Idx) (i : S10000x4.Idx) (hi0 : (i 0).val = q * 400 + (j 0).val) (hi1 : (i 1).val = (j 1).val) :
    k1_pay1 (F := Ideal) x0 x1 x2 x3 j = ofMat (layer (toMat A) (toMat S) (rowOf b) (toMat W)) i := by
  subst hx1 hx2 hx3
  have h1 : toMat (k1_pay1 (F := Ideal) x0 x1 x2 x3) (j 0) (j 1) = layer (toMat x0) (toMat x1) (rowOf x2) (toMat x3) (j 0) (j 1) :=
    congrFun (congrFun (k1_pay1_toMat x0 x1 x2 x3) (j 0)) (j 1)
  have h2 : k1_pay1 (F := Ideal) x0 x1 x2 x3 j = toMat (k1_pay1 (F := Ideal) x0 x1 x2 x3) (j 0) (j 1) :=
    congrArg (k1_pay1 (F := Ideal) x0 x1 x2 x3) (eq_ix2 j)
  have h3 : (j 1 : Fin 4) = i 1 := Fin.ext hi1.symm
  refine h2.trans (h1.trans ?_)
  exact (layer_row (toMat x0) (toMat A) (toMat x1) (rowOf x2) (toMat x3) (j 0) (i 0)
      (strip_row A x0 e q he0 he1 hx0 (j 0) (i 0) hi0) (j 1)).trans
    (congrArg (layer (toMat A) (toMat x1) (rowOf x2) (toMat x3) (i 0)) h3)

/-- WHAT POINT `t` WRITES BACK is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz, View.ld_unit_zero (S := S1x16) hz, View.ld_unit_zero (S := S16x4) hz]
  obtain ⟨e0, e1, e2, e3, e4, e5, e6, e7, e8, e9⟩ := idx_facts t
  have hx1 : iblk1 V c 1 t = (V c main_call0_v3 : S10000x16.Idx → EReal) := by
    funext y
    show (V c main_call0_v3 : S10000x16.Idx → EReal) (((cfg1.win 1).blk t).view.emb y) = (V c main_call0_v3 : S10000x16.Idx → EReal) y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 16 + 1 * (y 1).val = (y 1).val; omega
  have hx2 : iblk1 V c 2 t = (V c main_call0_v4 : S1x16.Idx → EReal) := by
    funext y
    show (V c main_call0_v4 : S1x16.Idx → EReal) (((cfg1.win 2).blk t).view.emb y) = (V c main_call0_v4 : S1x16.Idx → EReal) y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 16 + 1 * (y 1).val = (y 1).val; omega
  have hx3 : iblk1 V c 3 t = (V c main_arg6 : S16x4.Idx → EReal) := by
    funext y
    show (V c main_arg6 : S16x4.Idx → EReal) (((cfg1.win 3).blk t).view.emb y) = (V c main_arg6 : S16x4.Idx → EReal) y
    refine congrArg _ (funext fun a => Fin.ext ?_)
    match a with
    | ⟨0, _⟩ => show win1_3.index t (0 : Fin 2) * 16 + 1 * (y 0).val = (y 0).val; omega
    | ⟨1, _⟩ => show win1_3.index t (1 : Fin 2) * 4 + 1 * (y 1).val = (y 1).val; omega
  funext j
  refine point_eq (V c main_call0_v2_1 : S10000x10000.Idx → EReal) (V c main_call0_v3 : S10000x16.Idx → EReal) (V c main_call0_v4 : S1x16.Idx → EReal) (V c main_arg6 : S16x4.Idx → EReal)
    (iblk1 V c 0 t) (iblk1 V c 1 t) (iblk1 V c 2 t) (iblk1 V c 3 t)
    (fun y => ((cfg1.win 0).blk t).view.emb y) t.val ?_ ?_ (fun y => rfl) hx1 hx2 hx3 j (((cfg1.win 4).blk t).view.emb j) ?_ ?_
  · intro y; show win1_0.index t (0 : Fin 2) * 400 + 1 * (y 0).val = t.val * 400 + (y 0).val; omega
  · intro y; show win1_0.index t (1 : Fin 2) * 10000 + 1 * (y 1).val = (y 1).val; omega
  · show win1_4.index t (0 : Fin 2) * 400 + 1 * (j 0).val = t.val * 400 + (j 0).val; omega
  · show win1_4.index t (1 : Fin 2) * 4 + 1 * (j 1).val = (j 1).val; omega

/-- An index of the output array is in point `t`'s block iff each coordinate is in the block's range on its axis. -/
theorem mem_blk (t : Fin cfg1.N) (i : S10000x4.Idx) :
    i ∈ ((cfg1.win 4).blk t).view.set ↔ ∀ a : Fin 2, win1_4.index t a * S400x4.size a ≤ (i a).val ∧ (i a).val < win1_4.index t a * S400x4.size a + S400x4.size a := by
  show i ∈ ((View.whole main_call0_v5).slice (win1_4.rect t)).set ↔ _
  rw [View.set_slice_whole, Rect.mem_set_unit]
  exact Iff.rfl

/-- Every row of the output array lies in the block of the point `row / 400`. -/
theorem cover (i : S10000x4.Idx) : ∃ t : Fin cfg1.N, (cfg1.win 4).flush t = true ∧ i ∈ ((cfg1.win 4).blk t).view.set := by
  have hi0 : (i 0).val < 10000 := (i 0).isLt
  have hi1 : (i 1).val < 4 := (i 1).isLt
  have hN : grid1.N = 25 := N_1
  let t : Fin cfg1.N := ⟨(i 0).val / 400, by show (i 0).val / 400 < grid1.N; rw [hN]; omega⟩
  have ht : t.val = (i 0).val / 400 := rfl
  obtain ⟨e0, e1, e2, e3, e4, e5, e6, e7, e8, e9⟩ := idx_facts t
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 4 ≤ (i 1).val ∧ (i 1).val < win1_4.index t (1 : Fin 2) * 4 + 4; omega

/-- THE OUTPUT ARRAY after the region: `G` of the arrays the region found. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.Region2.lean ====
/-
  THE THIRD REGION'S OUTPUT ARRAY: one graph-convolution layer over the 4 features, projected to 16.

  As in the second region: point t loads rows [400 t, 400 t + 400) of the graph matrix and the whole of the other operands
  and writes back the same rows of the output; a row of the layer reads only the matching row of the graph matrix, and
  the 25 blocks tile the output: the array ends at relu⁺ (A · S) b · W of the arrays the region found.
-/
import proofs.«179443_g1520418423397_cont_week2b_307_4_alg».proof.Proof.Gen.KernelIdeal.Frame
import proofs.«179443_g1520418423397_cont_week2b_307_4_alg».proof.Proof.Payloads
import proofs.«179443_g1520418423397_cont_week2b_307_4_alg».proof.Proof.RowLocal
import Idealize.ShloMosaic.Lib.Pipeline.Value

set_option maxRecDepth 16384

noncomputable section

namespace Cert.KernelIdeal.Region2

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the strip of the graph matrix and the output block move down with the
    point, 400 rows at a time; every other operand is its whole array at every point. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- What the region's output array ends holding, as one function of the arrays the region finds. -/
def G (c : Dev nD) : S10000x16.Idx → EReal :=
  ofMat (layer (toMat (V c main_call0_v2_1 : S10000x10000.Idx → EReal)) (toMat (V c main_call0_v6 : S10000x4.Idx → EReal)) (rowOf (V c main_call0_v7 : S1x4.Idx → EReal)) (toMat (V c main_arg8 : S4x16.Idx → EReal)))

/-- Rows of a strip are rows of the whole matrix: if the strip's entry at `y` is the matrix's at `e y`, where `e` shifts
    the row by `q` strips of 400 and keeps the column, then row `r` of the strip is row `q * 400 + r` of the matrix. -/
theorem strip_row (A : S10000x10000.Idx → EReal) (x0 : S400x10000.Idx → EReal) (e : S400x10000.Idx → S10000x10000.Idx) (q : ℕ)
    (he0 : ∀ y, (e y 0).val = q * 400 + (y 0).val) (he1 : ∀ y, (e y 1).val = (y 1).val) (hx : ∀ y, x0 y = A (e y))
    (r : Fin 400) (r' : Fin 10000) (hr : r'.val = q * 400 + r.val) (k : Fin 10000) : toMat x0 r k = toMat A r' k := by
  show x0 (ix2 r k) = A (ix2 r' k)
  rw [hx]
  refine congrArg A (funext fun a => Fin.ext ?_)
  match a with
  | ⟨0, _⟩ => exact (he0 _).trans hr.symm
  | ⟨1, _⟩ => exact he1 _

/-- One entry of one block: the body's stored value at `j` is the whole layer's value at the array index `i` that `j`
    is embedded at. -/
theorem point_eq (A : S10000x10000.Idx → EReal) (S : S10000x4.Idx → EReal) (b : S1x4.Idx → EReal) (W : S4x16.Idx → EReal)
    (x0 : Vec Ideal S400x10000 .bf16) (x1 : Vec Ideal S10000x4 .bf16) (x2 : Vec Ideal S1x4 .f32) (x3 : Vec Ideal S4x16 .f32)
    (e : S400x10000.Idx → S10000x10000.Idx) (q : ℕ)
    (he0 : ∀ y, (e y 0).val = q * 400 + (y 0).val) (he1 : ∀ y, (e y 1).val = (y 1).val) (hx0 : ∀ y, x0 y = A (e y))
    (hx1 : x1 = S) (hx2 : x2 = b) (hx3 : x3 = W)
    (j : S400x16.Idx) (i : S10000x16.Idx) (hi0 : (i 0).val = q * 400 + (j 0).val) (hi1 : (i 1).val = (j 1).val) :
    k2_pay1 (F := Ideal) x0 x1 x2 x3 j = ofMat (layer (toMat A) (toMat S) (rowOf b) (toMat W)) i := by
  subst hx1 hx2 hx3
  have h1 : toMat (k2_pay1 (F := Ideal) x0 x1 x2 x3) (j 0) (j 1) = layer (toMat x0) (toMat x1) (rowOf x2) (toMat x3) (j 0) (j 1) :=
    congrFun (congrFun (k2_pay1_toMat x0 x1 x2 x3) (j 0)) (j 1)
  have h2 : k2_pay1 (F := Ideal) x0 x1 x2 x3 j = toMat (k2_pay1 (F := Ideal) x0 x1 x2 x3) (j 0) (j 1) :=
    congrArg (k2_pay1 (F := Ideal) x0 x1 x2 x3) (eq_ix2 j)
  have h3 : (j 1 : Fin 16) = i 1 := Fin.ext hi1.symm
  refine h2.trans (h1.trans ?_)
  exact (layer_row (toMat x0) (toMat A) (toMat x1) (rowOf x2) (toMat x3) (j 0) (i 0)
      (strip_row A x0 e q he0 he1 hx0 (j 0) (i 0) hi0) (j 1)).trans
    (congrArg (layer (toMat A) (toMat x1) (rowOf x2) (toMat x3) (i 0)) h3)

/-- WHAT POINT `t` WRITES BACK is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x4) hz, View.ld_unit_zero (S := S1x4) hz, View.ld_unit_zero (S := S4x16) hz]
  obtain ⟨e0, e1, e2, e3, e4, e5, e6, e7, e8, e9⟩ := idx_facts t
  have hx1 : iblk2 V c 1 t = (V c main_call0_v6 : S10000x4.Idx → EReal) := by
    funext y
    show (V c main_call0_v6 : S10000x4.Idx → EReal) (((cfg2.win 1).blk t).view.emb y) = (V c main_call0_v6 : S10000x4.Idx → EReal) y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 4 + 1 * (y 1).val = (y 1).val; omega
  have hx2 : iblk2 V c 2 t = (V c main_call0_v7 : S1x4.Idx → EReal) := by
    funext y
    show (V c main_call0_v7 : S1x4.Idx → EReal) (((cfg2.win 2).blk t).view.emb y) = (V c main_call0_v7 : S1x4.Idx → EReal) y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 4 + 1 * (y 1).val = (y 1).val; omega
  have hx3 : iblk2 V c 3 t = (V c main_arg8 : S4x16.Idx → EReal) := by
    funext y
    show (V c main_arg8 : S4x16.Idx → EReal) (((cfg2.win 3).blk t).view.emb y) = (V c main_arg8 : S4x16.Idx → EReal) y
    refine congrArg _ (funext fun a => Fin.ext ?_)
    match a with
    | ⟨0, _⟩ => show win2_3.index t (0 : Fin 2) * 4 + 1 * (y 0).val = (y 0).val; omega
    | ⟨1, _⟩ => show win2_3.index t (1 : Fin 2) * 16 + 1 * (y 1).val = (y 1).val; omega
  funext j
  refine point_eq (V c main_call0_v2_1 : S10000x10000.Idx → EReal) (V c main_call0_v6 : S10000x4.Idx → EReal) (V c main_call0_v7 : S1x4.Idx → EReal) (V c main_arg8 : S4x16.Idx → EReal)
    (iblk2 V c 0 t) (iblk2 V c 1 t) (iblk2 V c 2 t) (iblk2 V c 3 t)
    (fun y => ((cfg2.win 0).blk t).view.emb y) t.val ?_ ?_ (fun y => rfl) hx1 hx2 hx3 j (((cfg2.win 4).blk t).view.emb j) ?_ ?_
  · intro y; show win2_0.index t (0 : Fin 2) * 400 + 1 * (y 0).val = t.val * 400 + (y 0).val; omega
  · intro y; show win2_0.index t (1 : Fin 2) * 10000 + 1 * (y 1).val = (y 1).val; omega
  · show win2_4.index t (0 : Fin 2) * 400 + 1 * (j 0).val = t.val * 400 + (j 0).val; omega
  · show win2_4.index t (1 : Fin 2) * 16 + 1 * (j 1).val = (j 1).val; omega

/-- An index of the output array is in point `t`'s block iff each coordinate is in the block's range on its axis. -/
theorem mem_blk (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_call0_v8).slice (win2_4.rect t)).set ↔ _
  rw [View.set_slice_whole, Rect.mem_set_unit]
  exact Iff.rfl

/-- Every row of the output array lies in the block of the point `row / 400`. -/
theorem cover (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  have hN : grid2.N = 25 := N_2
  let t : Fin cfg2.N := ⟨(i 0).val / 400, by show (i 0).val / 400 < grid2.N; rw [hN]; omega⟩
  have ht : t.val = (i 0).val / 400 := rfl
  obtain ⟨e0, e1, e2, e3, e4, e5, e6, e7, e8, e9⟩ := idx_facts t
  refine ⟨t, flush2_4 t, ?_⟩
  rw [mem_blk]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 16 ≤ (i 1).val ∧ (i 1).val < win2_4.index t (1 : Fin 2) * 16 + 16; omega

/-- THE OUTPUT ARRAY after the region: `G` of the arrays the region found. -/
theorem final (c : Dev nD) : (dat2 V c).arrAt 4 cfg2.N = G V c :=
  (dat2 V c).arrAt_eq_of_cover 4 (G V c) (fun t _ => flushed_eq V c t) (cover)

end Cert.KernelIdeal.Region2

end
-- ==== Proof.Region3.lean ====
/-
  THE LAST REGION'S OUTPUT ARRAY: the log-softmax of the aggregated features plus the bias.

  Point t loads rows [400 t, 400 t + 400) of the graph matrix and the whole feature array and bias row, and writes back the
  same rows of the output. The row maximum, the row sum and the two subtractions act inside a row, and a row of the
  product reads only the matching row of the graph matrix; the 25 blocks tile the output: the array ends at
  logSoftmax (A · S + b) of the arrays the region found.
-/
import proofs.«179443_g1520418423397_cont_week2b_307_4_alg».proof.Proof.Gen.KernelIdeal.Frame
import proofs.«179443_g1520418423397_cont_week2b_307_4_alg».proof.Proof.Payloads
import proofs.«179443_g1520418423397_cont_week2b_307_4_alg».proof.Proof.RowLocal
import Idealize.ShloMosaic.Lib.Pipeline.Value

set_option maxRecDepth 16384

noncomputable section

namespace Cert.KernelIdeal.Region3

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the strip of the graph matrix and the output block move down with the
    point, 400 rows at a time; every other operand is its whole array at every point. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What the region's output array ends holding, as one function of the arrays the region finds. -/
def G (c : Dev nD) : S10000x16.Idx → EReal :=
  ofMat (logSoftmax (addBias (mmul (toMat (V c main_call0_v2_1 : S10000x10000.Idx → EReal)) (toMat (V c main_call0_v9 : S10000x16.Idx → EReal))) (rowOf (V c main_call0_v10 : S1x16.Idx → EReal))))

/-- Rows of a strip are rows of the whole matrix: if the strip's entry at `y` is the matrix's at `e y`, where `e` shifts
    the row by `q` strips of 400 and keeps the column, then row `r` of the strip is row `q * 400 + r` of the matrix. -/
theorem strip_row (A : S10000x10000.Idx → EReal) (x0 : S400x10000.Idx → EReal) (e : S400x10000.Idx → S10000x10000.Idx) (q : ℕ)
    (he0 : ∀ y, (e y 0).val = q * 400 + (y 0).val) (he1 : ∀ y, (e y 1).val = (y 1).val) (hx : ∀ y, x0 y = A (e y))
    (r : Fin 400) (r' : Fin 10000) (hr : r'.val = q * 400 + r.val) (k : Fin 10000) : toMat x0 r k = toMat A r' k := by
  show x0 (ix2 r k) = A (ix2 r' k)
  rw [hx]
  refine congrArg A (funext fun a => Fin.ext ?_)
  match a with
  | ⟨0, _⟩ => exact (he0 _).trans hr.symm
  | ⟨1, _⟩ => exact he1 _

/-- One entry of one block: the body's stored value at `j` is the whole computation's value at the array index `i` that
    `j` is embedded at. -/
theorem point_eq (A : S10000x10000.Idx → EReal) (S : S10000x16.Idx → EReal) (b : S1x16.Idx → EReal)
    (x0 : Vec Ideal S400x10000 .bf16) (x1 : Vec Ideal S10000x16 .bf16) (x2 : Vec Ideal S1x16 .f32)
    (e : S400x10000.Idx → S10000x10000.Idx) (q : ℕ)
    (he0 : ∀ y, (e y 0).val = q * 400 + (y 0).val) (he1 : ∀ y, (e y 1).val = (y 1).val) (hx0 : ∀ y, x0 y = A (e y))
    (hx1 : x1 = S) (hx2 : x2 = b)
    (j : S400x16.Idx) (i : S10000x16.Idx) (hi0 : (i 0).val = q * 400 + (j 0).val) (hi1 : (i 1).val = (j 1).val) :
    k3_pay1 (F := Ideal) x0 x1 x2 j = ofMat (logSoftmax (addBias (mmul (toMat A) (toMat S)) (rowOf b))) i := by
  subst hx1 hx2
  have h1 : toMat (k3_pay1 (F := Ideal) x0 x1 x2) (j 0) (j 1) = logSoftmax (addBias (mmul (toMat x0) (toMat x1)) (rowOf x2)) (j 0) (j 1) :=
    congrFun (congrFun (k3_pay1_toMat x0 x1 x2) (j 0)) (j 1)
  have h2 : k3_pay1 (F := Ideal) x0 x1 x2 j = toMat (k3_pay1 (F := Ideal) x0 x1 x2) (j 0) (j 1) :=
    congrArg (k3_pay1 (F := Ideal) x0 x1 x2) (eq_ix2 j)
  have h3 : (j 1 : Fin 16) = i 1 := Fin.ext hi1.symm
  refine h2.trans (h1.trans ?_)
  exact (lastLayer_row (toMat x0) (toMat A) (toMat x1) (rowOf x2) (j 0) (i 0)
      (strip_row A x0 e q he0 he1 hx0 (j 0) (i 0) hi0) (j 1)).trans
    (congrArg (logSoftmax (addBias (mmul (toMat A) (toMat x1)) (rowOf x2)) (i 0)) h3)

/-- WHAT POINT `t` WRITES BACK is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  obtain ⟨e0, e1, e2, e3, e4, e5, e6, e7⟩ := idx_facts t
  have hx1 : iblk3 V c 1 t = (V c main_call0_v9 : S10000x16.Idx → EReal) := by
    funext y
    show (V c main_call0_v9 : S10000x16.Idx → EReal) (((cfg3.win 1).blk t).view.emb y) = (V c main_call0_v9 : S10000x16.Idx → EReal) y
    refine congrArg _ (funext fun a => Fin.ext ?_)
    match a with
    | ⟨0, _⟩ => show win3_1.index t (0 : Fin 2) * 10000 + 1 * (y 0).val = (y 0).val; omega
    | ⟨1, _⟩ => show win3_1.index t (1 : Fin 2) * 16 + 1 * (y 1).val = (y 1).val; omega
  have hx2 : iblk3 V c 2 t = (V c main_call0_v10 : S1x16.Idx → EReal) := by
    funext y
    show (V c main_call0_v10 : S1x16.Idx → EReal) (((cfg3.win 2).blk t).view.emb y) = (V c main_call0_v10 : S1x16.Idx → EReal) y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 16 + 1 * (y 1).val = (y 1).val; omega
  funext j
  refine point_eq (V c main_call0_v2_1 : S10000x10000.Idx → EReal) (V c main_call0_v9 : S10000x16.Idx → EReal) (V c main_call0_v10 : S1x16.Idx → EReal)
    (iblk3 V c 0 t) (iblk3 V c 1 t) (iblk3 V c 2 t)
    (fun y => ((cfg3.win 0).blk t).view.emb y) t.val ?_ ?_ (fun y => rfl) hx1 hx2 j (((cfg3.win 3).blk t).view.emb j) ?_ ?_
  · intro y; show win3_0.index t (0 : Fin 2) * 400 + 1 * (y 0).val = t.val * 400 + (y 0).val; omega
  · intro y; show win3_0.index t (1 : Fin 2) * 10000 + 1 * (y 1).val = (y 1).val; omega
  · show win3_3.index t (0 : Fin 2) * 400 + 1 * (j 0).val = t.val * 400 + (j 0).val; omega
  · show win3_3.index t (1 : Fin 2) * 16 + 1 * (j 1).val = (j 1).val; omega

/-- An index of the output array is in point `t`'s block iff each coordinate is in the block's range on its axis. -/
theorem mem_blk (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v0).slice (win3_3.rect t)).set ↔ _
  rw [View.set_slice_whole, Rect.mem_set_unit]
  exact Iff.rfl

/-- Every row of the output array lies in the block of the point `row / 400`. -/
theorem cover (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  have hN : grid3.N = 25 := N_3
  let t : Fin cfg3.N := ⟨(i 0).val / 400, by show (i 0).val / 400 < grid3.N; rw [hN]; omega⟩
  have ht : t.val = (i 0).val / 400 := rfl
  obtain ⟨e0, e1, e2, e3, e4, e5, e6, e7⟩ := idx_facts t
  refine ⟨t, flush3_3 t, ?_⟩
  rw [mem_blk]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 16 ≤ (i 1).val ∧ (i 1).val < win3_3.index t (1 : Fin 2) * 16 + 16; omega

/-- THE OUTPUT ARRAY after the region: `G` of the arrays the region found. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.KernelValue.lean ====
/-
  THE IDEALIZED KERNEL'S RESULT AS ONE FUNCTION OF THE ARGUMENT ARRAYS.

  The result buffer ends at the last stage of the fold of buffer contents through @main's eight segments. Walking that
  fold back:
    * a host stretch changes a float format (the identity at the exact instance) and reshapes a bias vector [n] to a
      row [1, n]; it leaves every other buffer alone;
    * a region leaves its input arrays and every buffer that is none of its arrays alone, and each output array ends at
      the function of the entry contents the region's own module states (the 25 blocks tile the array);
    * the narrowed copy of the graph matrix that the first region writes is the graph matrix, and the later regions read
      it unchanged.
  So the result is the log-softmax of A · S₄ + b₄ with S₄ = layer A S₃ b₃ W₄, S₃ = layer A S₂ b₂ W₃ and
  S₂ = relu⁺ ((A · X) · W₁) b₁ · W₂ — the specification's `tail` over the aggregation-first first layer — of the
  argument arrays as launched.
-/
import proofs.«179443_g1520418423397_cont_week2b_307_4_alg».proof.Proof.Region0
import proofs.«179443_g1520418423397_cont_week2b_307_4_alg».proof.Proof.Region1
import proofs.«179443_g1520418423397_cont_week2b_307_4_alg».proof.Proof.Region2
import proofs.«179443_g1520418423397_cont_week2b_307_4_alg».proof.Proof.Region3
import Idealize.ShloMosaic.Lib.ValueLayout
import Idealize.ShloMosaic.Lib.StableHlo.Run

set_option maxRecDepth 16384

noncomputable section

namespace Cert.KernelIdeal.KValue

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

local notation "dr" => Proc.devRef Proc.tc

/-! ## A host stretch leaves alone what it does not write -/

theorem W1_keep (b : Ref sig .tc) (h0 : b ≠ main_call0_v0) (h1 : b ≠ main_call0_v1) :
    W1 m ρ c (dr b) = W0 m ρ c (dr b) :=
  StableHlo.after_of_forall_not_mem (b := dr b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem W3_keep (b : Ref sig .tc) (h0 : b ≠ main_call0_v3) (h1 : b ≠ main_call0_v4) :
    W3 m ρ c (dr b) = W2 m ρ c (dr b) :=
  StableHlo.after_of_forall_not_mem (b := dr b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))

theorem W5_keep (b : Ref sig .tc) (h0 : b ≠ main_call0_v6) (h1 : b ≠ main_call0_v7) :
    W5 m ρ c (dr b) = W4 m ρ c (dr b) :=
  StableHlo.after_of_forall_not_mem (b := dr b) _ _ (List.forall_iff_forall_mem.mp (by
    simp only [hostOps2, List.Forall, StableHlo.unary_writes, StableHlo.reshape_writes, Finset.mem_singleton]
    exact ⟨StableHlo.devRef_ne_of_ne h0, StableHlo.devRef_ne_of_ne h1⟩))

theorem W7_keep (b : Ref sig .tc) (h0 : b ≠ main_call0_v9) (h1 : b ≠ main_call0_v10) :
    W7 m ρ c (dr b) = W6 m ρ c (dr b) :=
  StableHlo.after_of_forall_not_mem (b := dr b) _ _ (List.forall_iff_forall_mem.mp (by
    simp only [hostOps3, List.Forall, StableHlo.unary_writes, StableHlo.reshape_writes, Finset.mem_singleton]
    exact ⟨StableHlo.devRef_ne_of_ne h0, StableHlo.devRef_ne_of_ne h1⟩))

/-! ## What the host stretches write -/

/-- The narrowed features are the features. -/
theorem W1_v0 : (W1 m ρ c (dr main_call0_v0) : S10000x128.Idx → EReal) = (m ((c : Thread nD τ).loc main_arg0) : S10000x128.Idx → EReal) := by
  show (StableHlo.after hostOps0 (W0 m ρ c) (dr main_call0_v0) : S10000x128.Idx → EReal) = _
  after_results
  rfl

/-- The first bias as a row. -/
theorem W1_v1 : (W1 m ρ c (dr main_call0_v1) : S1x600.Idx → EReal)
    = shapeCast S1x600 (m ((c : Thread nD τ).loc main_arg3) : S600.Idx → EReal) shapeCasts_S600_S1x600 := by
  show (StableHlo.after hostOps0 (W0 m ρ c) (dr main_call0_v1) : S1x600.Idx → EReal) = _
  after_results
  rfl

/-- The second bias as a row; the first layer's output narrowed is itself. -/
theorem W3_v3 : (W3 m ρ c (dr main_call0_v3) : S10000x16.Idx → EReal) = (W2 m ρ c (dr main_call0_v2_0) : S10000x16.Idx → EReal) := by
  show (StableHlo.after hostOps1 (W2 m ρ c) (dr main_call0_v3) : S10000x16.Idx → EReal) = _
  after_results
  rfl
theorem W3_v4 : (W3 m ρ c (dr main_call0_v4) : S1x16.Idx → EReal)
    = shapeCast S1x16 (W2 m ρ c (dr main_arg5) : S16.Idx → EReal) shapeCasts_S16_S1x16 := by
  show (StableHlo.after hostOps1 (W2 m ρ c) (dr main_call0_v4) : S1x16.Idx → EReal) = _
  after_results
  rfl
theorem W5_v6 : (W5 m ρ c (dr main_call0_v6) : S10000x4.Idx → EReal) = (W4 m ρ c (dr main_call0_v5) : S10000x4.Idx → EReal) := by
  show (StableHlo.after hostOps2 (W4 m ρ c) (dr main_call0_v6) : S10000x4.Idx → EReal) = _
  after_results
  rfl
theorem W5_v7 : (W5 m ρ c (dr main_call0_v7) : S1x4.Idx → EReal)
    = shapeCast S1x4 (W4 m ρ c (dr main_arg7) : S4.Idx → EReal) shapeCasts_S4_S1x4 := by
  show (StableHlo.after hostOps2 (W4 m ρ c) (dr main_call0_v7) : S1x4.Idx → EReal) = _
  after_results
  rfl
theorem W7_v9 : (W7 m ρ c (dr main_call0_v9) : S10000x16.Idx → EReal) = (W6 m ρ c (dr main_call0_v8) : S10000x16.Idx → EReal) := by
  show (StableHlo.after hostOps3 (W6 m ρ c) (dr main_call0_v9) : S10000x16.Idx → EReal) = _
  after_results
  rfl
theorem W7_v10 : (W7 m ρ c (dr main_call0_v10) : S1x16.Idx → EReal)
    = shapeCast S1x16 (W6 m ρ c (dr main_arg9) : S16.Idx → EReal) shapeCasts_S16_S1x16 := by
  show (StableHlo.after hostOps3 (W6 m ρ c) (dr main_call0_v10) : S1x16.Idx → EReal) = _
  after_results
  rfl

/-- A vector reshaped to a one-row array, read as a row, is the vector. -/
theorem rowOf_reshape {n : ℕ} (x : (⟨1, ![n]⟩ : Shape).Idx → EReal) (h : (⟨1, ![n]⟩ : Shape).ShapeCasts ⟨2, ![1, n]⟩) :
    rowOf (shapeCast ⟨2, ![1, n]⟩ x h) = toRow x :=
  funext fun cc => shapeCast_a_1a_apply x h 0 cc

/-! ## A buffer nothing writes holds its launch contents at every boundary -/

theorem W1_arg (b : Ref sig .tc) (h0 : b ≠ main_call0_v0) (h1 : b ≠ main_call0_v1) :
    W1 m ρ c (dr b) = m ((c : Thread nD τ).loc b) := W1_keep m ρ c b h0 h1
theorem W2_arg (b : Ref sig .tc) (hr0 : ∀ w, Pipeline.arrRef spec0 w ≠ b) (h0 : b ≠ main_call0_v0) (h1 : b ≠ main_call0_v1) :
    W2 m ρ c (dr b) = m ((c : Thread nD τ).loc b) := (W2_of_ne m ρ c b hr0).trans (W1_arg m ρ c b h0 h1)
theorem W3_arg (b : Ref sig .tc) (hr0 : ∀ w, Pipeline.arrRef spec0 w ≠ b) (h0 : b ≠ main_call0_v0) (h1 : b ≠ main_call0_v1)
    (h3 : b ≠ main_call0_v3) (h4 : b ≠ main_call0_v4) :
    W3 m ρ c (dr b) = m ((c : Thread nD τ).loc b) := (W3_keep m ρ c b h3 h4).trans (W2_arg m ρ c b hr0 h0 h1)
theorem W4_arg (b : Ref sig .tc) (hr0 : ∀ w, Pipeline.arrRef spec0 w ≠ b) (hr1 : ∀ w, Pipeline.arrRef spec1 w ≠ b)
    (h0 : b ≠ main_call0_v0) (h1 : b ≠ main_call0_v1) (h3 : b ≠ main_call0_v3) (h4 : b ≠ main_call0_v4) :
    W4 m ρ c (dr b) = m ((c : Thread nD τ).loc b) := (W4_of_ne m ρ c b hr1).trans (W3_arg m ρ c b hr0 h0 h1 h3 h4)
theorem W5_arg (b : Ref sig .tc) (hr0 : ∀ w, Pipeline.arrRef spec0 w ≠ b) (hr1 : ∀ w, Pipeline.arrRef spec1 w ≠ b)
    (h0 : b ≠ main_call0_v0) (h1 : b ≠ main_call0_v1) (h3 : b ≠ main_call0_v3) (h4 : b ≠ main_call0_v4)
    (h6 : b ≠ main_call0_v6) (h7 : b ≠ main_call0_v7) :
    W5 m ρ c (dr b) = m ((c : Thread nD τ).loc b) := (W5_keep m ρ c b h6 h7).trans (W4_arg m ρ c b hr0 hr1 h0 h1 h3 h4)
theorem W6_arg (b : Ref sig .tc) (hr0 : ∀ w, Pipeline.arrRef spec0 w ≠ b) (hr1 : ∀ w, Pipeline.arrRef spec1 w ≠ b)
    (hr2 : ∀ w, Pipeline.arrRef spec2 w ≠ b)
    (h0 : b ≠ main_call0_v0) (h1 : b ≠ main_call0_v1) (h3 : b ≠ main_call0_v3) (h4 : b ≠ main_call0_v4)
    (h6 : b ≠ main_call0_v6) (h7 : b ≠ main_call0_v7) :
    W6 m ρ c (dr b) = m ((c : Thread nD τ).loc b) := (W6_of_ne m ρ c b hr2).trans (W5_arg m ρ c b hr0 hr1 h0 h1 h3 h4 h6 h7)

/-! ## The copy of the graph matrix, written by the first region and read by the other three -/

theorem W2_adj : (W2 m ρ c (dr main_call0_v2_1) : S10000x10000.Idx → EReal) = (m ((c : Thread nD τ).loc main_arg1) : S10000x10000.Idx → EReal) :=
  (W2_arr m ρ c 6).trans ((Region0.final_copy (V1 m ρ) c).trans (W1_arg m ρ c main_arg1 (by decide) (by decide)))
theorem W3_adj : (W3 m ρ c (dr main_call0_v2_1) : S10000x10000.Idx → EReal) = (m ((c : Thread nD τ).loc main_arg1) : S10000x10000.Idx → EReal) :=
  (W3_keep m ρ c main_call0_v2_1 (by decide) (by decide)).trans (W2_adj m ρ c)
theorem W4_adj : (W4 m ρ c (dr main_call0_v2_1) : S10000x10000.Idx → EReal) = (m ((c : Thread nD τ).loc main_arg1) : S10000x10000.Idx → EReal) :=
  (W4_arr m ρ c 0).trans ((((dat1 (V3 m ρ) c).arrAt_in 0 rfl _).trans (A_eq1 (V3 m ρ) c 0)).trans (W3_adj m ρ c))
theorem W5_adj : (W5 m ρ c (dr main_call0_v2_1) : S10000x10000.Idx → EReal) = (m ((c : Thread nD τ).loc main_arg1) : S10000x10000.Idx → EReal) :=
  (W5_keep m ρ c main_call0_v2_1 (by decide) (by decide)).trans (W4_adj m ρ c)
theorem W6_adj : (W6 m ρ c (dr main_call0_v2_1) : S10000x10000.Idx → EReal) = (m ((c : Thread nD τ).loc main_arg1) : S10000x10000.Idx → EReal) :=
  (W6_arr m ρ c 0).trans ((((dat2 (V5 m ρ) c).arrAt_in 0 rfl _).trans (A_eq2 (V5 m ρ) c 0)).trans (W5_adj m ρ c))
theorem W7_adj : (W7 m ρ c (dr main_call0_v2_1) : S10000x10000.Idx → EReal) = (m ((c : Thread nD τ).loc main_arg1) : S10000x10000.Idx → EReal) :=
  (W7_keep m ρ c main_call0_v2_1 (by decide) (by decide)).trans (W6_adj m ρ c)

/-! ## The four layers, composed -/

/-- The first region's output: the aggregation-first first layer of the arguments. -/
theorem s2_eq : (W2 m ρ c (dr main_call0_v2_0) : S10000x16.Idx → EReal)
    = ofMat (firstAggFirst (toMat (m ((c : Thread nD τ).loc main_arg1) : S10000x10000.Idx → EReal)) (toMat (m ((c : Thread nD τ).loc main_arg0) : S10000x128.Idx → EReal)) (toMat (m ((c : Thread nD τ).loc main_arg2) : S128x600.Idx → EReal)) (toRow (m ((c : Thread nD τ).loc main_arg3) : S600.Idx → EReal)) (toMat (m ((c : Thread nD τ).loc main_arg4) : S600x16.Idx → EReal))) := by
  refine (W2_arr m ρ c 5).trans ((Region0.final (V1 m ρ) c).trans ?_)
  unfold Region0.G
  show ofMat (firstAggFirst (toMat (W1 m ρ c (dr main_arg1) : S10000x10000.Idx → EReal)) (toMat (W1 m ρ c (dr main_call0_v0) : S10000x128.Idx → EReal))
      (toMat (W1 m ρ c (dr main_arg2) : S128x600.Idx → EReal)) (rowOf (W1 m ρ c (dr main_call0_v1) : S1x600.Idx → EReal))
      (toMat (W1 m ρ c (dr main_arg4) : S600x16.Idx → EReal))) = _
  rw [W1_arg m ρ c main_arg1 (by decide) (by decide), W1_v0, W1_arg m ρ c main_arg2 (by decide) (by decide), W1_v1, rowOf_reshape,
    W1_arg m ρ c main_arg4 (by decide) (by decide)]

/-- The second region's output: one layer over the first region's. -/
theorem s3_eq (S2 : Fin 10000 → Fin 16 → EReal) (h2 : (W2 m ρ c (dr main_call0_v2_0) : S10000x16.Idx → EReal) = ofMat S2) :
    (W4 m ρ c (dr main_call0_v5) : S10000x4.Idx → EReal)
      = ofMat (layer (toMat (m ((c : Thread nD τ).loc main_arg1) : S10000x10000.Idx → EReal)) S2 (toRow (m ((c : Thread nD τ).loc main_arg5) : S16.Idx → EReal)) (toMat (m ((c : Thread nD τ).loc main_arg6) : S16x4.Idx → EReal))) := by
  refine (W4_arr m ρ c 4).trans ((Region1.final (V3 m ρ) c).trans ?_)
  unfold Region1.G
  show ofMat (layer (toMat (W3 m ρ c (dr main_call0_v2_1) : S10000x10000.Idx → EReal)) (toMat (W3 m ρ c (dr main_call0_v3) : S10000x16.Idx → EReal))
      (rowOf (W3 m ρ c (dr main_call0_v4) : S1x16.Idx → EReal)) (toMat (W3 m ρ c (dr main_arg6) : S16x4.Idx → EReal))) = _
  rw [W3_adj, W3_v3, h2, W3_v4, rowOf_reshape, W2_arg m ρ c main_arg5 (by decide) (by decide) (by decide),
    W3_arg m ρ c main_arg6 (by decide) (by decide) (by decide) (by decide) (by decide)]
  rfl

/-- The third region's output: one layer over the second region's. -/
theorem s4_eq (S3 : Fin 10000 → Fin 4 → EReal) (h3 : (W4 m ρ c (dr main_call0_v5) : S10000x4.Idx → EReal) = ofMat S3) :
    (W6 m ρ c (dr main_call0_v8) : S10000x16.Idx → EReal)
      = ofMat (layer (toMat (m ((c : Thread nD τ).loc main_arg1) : S10000x10000.Idx → EReal)) S3 (toRow (m ((c : Thread nD τ).loc main_arg7) : S4.Idx → EReal)) (toMat (m ((c : Thread nD τ).loc main_arg8) : S4x16.Idx → EReal))) := by
  refine (W6_arr m ρ c 4).trans ((Region2.final (V5 m ρ) c).trans ?_)
  unfold Region2.G
  show ofMat (layer (toMat (W5 m ρ c (dr main_call0_v2_1) : S10000x10000.Idx → EReal)) (toMat (W5 m ρ c (dr main_call0_v6) : S10000x4.Idx → EReal))
      (rowOf (W5 m ρ c (dr main_call0_v7) : S1x4.Idx → EReal)) (toMat (W5 m ρ c (dr main_arg8) : S4x16.Idx → EReal))) = _
  rw [W5_adj, W5_v6, h3, W5_v7, rowOf_reshape,
    W4_arg m ρ c main_arg7 (by decide) (by decide) (by decide) (by decide) (by decide) (by decide),
    W5_arg m ρ c main_arg8 (by decide) (by decide) (by decide) (by decide) (by decide) (by decide) (by decide) (by decide)]
  rfl

/-- The last region's output: the log-softmax of the aggregation of the third region's output, plus the bias. -/
theorem out_eq (S4 : Fin 10000 → Fin 16 → EReal) (h4 : (W6 m ρ c (dr main_call0_v8) : S10000x16.Idx → EReal) = ofMat S4) :
    (W8 m ρ c (dr main_v0) : S10000x16.Idx → EReal)
      = ofMat (logSoftmax (addBias (mmul (toMat (m ((c : Thread nD τ).loc main_arg1) : S10000x10000.Idx → EReal)) S4) (toRow (m ((c : Thread nD τ).loc main_arg9) : S16.Idx → EReal)))) := by
  refine (W8_arr m ρ c 3).trans ((Region3.final (V7 m ρ) c).trans ?_)
  unfold Region3.G
  show ofMat (logSoftmax (addBias (mmul (toMat (W7 m ρ c (dr main_call0_v2_1) : S10000x10000.Idx → EReal)) (toMat (W7 m ρ c (dr main_call0_v9) : S10000x16.Idx → EReal)))
      (rowOf (W7 m ρ c (dr main_call0_v10) : S1x16.Idx → EReal)))) = _
  rw [W7_adj, W7_v9, h4, W7_v10, rowOf_reshape,
    W6_arg m ρ c main_arg9 (by decide) (by decide) (by decide) (by decide) (by decide) (by decide) (by decide) (by decide) (by decide)]
  rfl

/-- THE RESULT: the specification's tail over the aggregation-first first layer, of the arguments as launched. -/
theorem result_eq : (W8 m ρ c (dr main_v0) : S10000x16.Idx → EReal)
    = ofMat (tail (toMat (m ((c : Thread nD τ).loc main_arg1) : S10000x10000.Idx → EReal))
        (firstAggFirst (toMat (m ((c : Thread nD τ).loc main_arg1) : S10000x10000.Idx → EReal)) (toMat (m ((c : Thread nD τ).loc main_arg0) : S10000x128.Idx → EReal)) (toMat (m ((c : Thread nD τ).loc main_arg2) : S128x600.Idx → EReal)) (toRow (m ((c : Thread nD τ).loc main_arg3) : S600.Idx → EReal)) (toMat (m ((c : Thread nD τ).loc main_arg4) : S600x16.Idx → EReal)))
        (toRow (m ((c : Thread nD τ).loc main_arg5) : S16.Idx → EReal)) (toMat (m ((c : Thread nD τ).loc main_arg6) : S16x4.Idx → EReal)) (toRow (m ((c : Thread nD τ).loc main_arg7) : S4.Idx → EReal)) (toMat (m ((c : Thread nD τ).loc main_arg8) : S4x16.Idx → EReal)) (toRow (m ((c : Thread nD τ).loc main_arg9) : S16.Idx → EReal))) :=
  out_eq m ρ c _ (s4_eq m ρ c _ (s3_eq m ρ c _ (s2_eq m ρ c)))

end Cert.KernelIdeal.KValue

end
-- ==== Proof.RefValue.lean ====
/-
  THE REFERENCE PROGRAM COMPUTES THE SPECIFICATION.

  The reference is read one operation at a time. Each matrix product of the program is, entry by entry, the sum over the
  contracted coordinate of a left entry times a right entry, which is the product of the two arrays read as matrices. Each
  bias is a row laid out twice (first as a one-row matrix, then down every row), so at (r, c) it is the row's entry c; each
  rectification is the maximum with the zero word laid out everywhere. Chaining the stages gives
      Z = A · layer A (layer A (relu⁺ (A · (X · W₁)) b₁ · W₂) b₂ W₃) b₃ W₄ + b₄ .
  The last stage is the shifted logarithm of the softmax: the row maximum is the program's fold of the maximum from −∞ over
  the sixteen columns (its further maximum with −∞ changes nothing, −∞ being the least extended real), the row sum starts
  from the zero word, which is the number zero, and the two subtractions are the specification's.
-/
import proofs.«179443_g1520418423397_cont_week2b_307_4_alg».proof.Proof.RefReadP
import proofs.«179443_g1520418423397_cont_week2b_307_4_alg».proof.Proof.Spec
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx

/-- Two rank-two indices agree as soon as their two coordinates do. -/
local macro "idx2" : tactic => `(tactic| (funext a; match a with | ⟨0, _⟩ => rfl | ⟨1, _⟩ => rfl))
/-- Two rank-one indices agree as soon as their coordinate does. -/
local macro "idx1" : tactic => `(tactic| (funext a; match a with | ⟨0, _⟩ => rfl))

/-- An array whose entry at (r, c) is the sum over k of a left array's entry at (r, k) times a right array's entry at
    (k, c) is, read as a matrix, the product of the two read as matrices. -/
theorem toMat_eq_mmul {M K N : ℕ} (Z : (⟨2, ![M, N]⟩ : Shape).Idx → EReal) (L : (⟨2, ![M, K]⟩ : Shape).Idx → EReal)
    (R : (⟨2, ![K, N]⟩ : Shape).Idx → EReal)
    (li : (⟨2, ![M, N]⟩ : Shape).Idx → Fin K → (⟨2, ![M, K]⟩ : Shape).Idx)
    (ri : (⟨2, ![M, N]⟩ : Shape).Idx → Fin K → (⟨2, ![K, N]⟩ : Shape).Idx)
    (hl : ∀ r c k, li (ix2 r c) k = ix2 r k) (hr : ∀ r c k, ri (ix2 r c) k = ix2 k c)
    (h : ∀ i, Z i = ∑ k : Fin K, L (li i k) * R (ri i k)) :
    Gcn.toMat Z = Gcn.mmul (Gcn.toMat L) (Gcn.toMat R) := by
  funext r c
  show Z (ix2 r c) = ∑ k : Fin K, L (ix2 r k) * R (ix2 k c)
  rw [h]
  exact Finset.sum_congr rfl fun k _ => by rw [hl, hr]

variable (x0 : (⟨S10000x128, .f32⟩ : BufTy).Contents (Elt Ideal)) (x1 : (⟨S10000x10000, .f32⟩ : BufTy).Contents (Elt Ideal)) (x2 : (⟨S128x600, .f32⟩ : BufTy).Contents (Elt Ideal)) (x3 : (⟨S600, .f32⟩ : BufTy).Contents (Elt Ideal)) (x4 : (⟨S600x16, .f32⟩ : BufTy).Contents (Elt Ideal)) (x5 : (⟨S16, .f32⟩ : BufTy).Contents (Elt Ideal)) (x6 : (⟨S16x4, .f32⟩ : BufTy).Contents (Elt Ideal)) (x7 : (⟨S4, .f32⟩ : BufTy).Contents (Elt Ideal)) (x8 : (⟨S4x16, .f32⟩ : BufTy).Contents (Elt Ideal)) (x9 : (⟨S16, .f32⟩ : BufTy).Contents (Elt Ideal))

/-! ## The first layer: relu⁺ (A · (X · W₁)) b₁ · W₂ -/

theorem toMat_v0 : Gcn.toMat (val_main_v0 (F := Ideal) x0 x2) = Gcn.mmul (Gcn.toMat x0) (Gcn.toMat x2) :=
  toMat_eq_mmul _ _ _ lidx_main_v0 ridx_main_v0 (fun _ _ _ => by idx2) (fun _ _ _ => by idx2)
    (val_main_v0_apply x0 x2)

theorem toMat_v1 : Gcn.toMat (val_main_v1 (F := Ideal) x0 x1 x2) = Gcn.mmul (Gcn.toMat x1) (Gcn.toMat (val_main_v0 (F := Ideal) x0 x2)) :=
  toMat_eq_mmul _ _ _ lidx_main_v1 ridx_main_v1 (fun _ _ _ => by idx2) (fun _ _ _ => by idx2)
    (val_main_v1_apply x0 x1 x2)

theorem toMat_v5 : Gcn.toMat (val_main_v5 (F := Ideal) x0 x1 x2 x3) = Gcn.biasRelu (Gcn.toMat (val_main_v1 (F := Ideal) x0 x1 x2)) (Gcn.toRow x3) := by
  funext r c
  show (val_main_v5 (F := Ideal) x0 x1 x2 x3) (ix2 r c) = max ((val_main_v1 (F := Ideal) x0 x1 x2) (ix2 r c) + x3 (ix1 c)) Gcn.zero32
  rw [val_main_v5_apply, val_main_v4_apply, val_main_v3_apply, val_main_v2_apply,
    val_main_call0_v0_apply, val_main_call0_cst_apply,
    show idx_main_v2 (idx_main_v3 (ix2 r c)) = ix1 c from by idx1]
  rfl

theorem toMat_v6 : Gcn.toMat (val_main_v6 (F := Ideal) x0 x1 x2 x3 x4) = Gcn.mmul (Gcn.toMat (val_main_v5 (F := Ideal) x0 x1 x2 x3)) (Gcn.toMat x4) :=
  toMat_eq_mmul _ _ _ lidx_main_v6 ridx_main_v6 (fun _ _ _ => by idx2) (fun _ _ _ => by idx2)
    (val_main_v6_apply x0 x1 x2 x3 x4)

/-! ## The second layer -/

theorem toMat_v7 : Gcn.toMat (val_main_v7 (F := Ideal) x0 x1 x2 x3 x4) = Gcn.mmul (Gcn.toMat x1) (Gcn.toMat (val_main_v6 (F := Ideal) x0 x1 x2 x3 x4)) :=
  toMat_eq_mmul _ _ _ lidx_main_v7 ridx_main_v7 (fun _ _ _ => by idx2) (fun _ _ _ => by idx2)
    (val_main_v7_apply x0 x1 x2 x3 x4)

theorem toMat_v11 : Gcn.toMat (val_main_v11 (F := Ideal) x0 x1 x2 x3 x4 x5) = Gcn.biasRelu (Gcn.toMat (val_main_v7 (F := Ideal) x0 x1 x2 x3 x4)) (Gcn.toRow x5) := by
  funext r c
  show (val_main_v11 (F := Ideal) x0 x1 x2 x3 x4 x5) (ix2 r c) = max ((val_main_v7 (F := Ideal) x0 x1 x2 x3 x4) (ix2 r c) + x5 (ix1 c)) Gcn.zero32
  rw [val_main_v11_apply, val_main_v10_apply, val_main_v9_apply, val_main_v8_apply,
    val_main_call1_v0_apply, val_main_call1_cst_apply,
    show idx_main_v8 (idx_main_v9 (ix2 r c)) = ix1 c from by idx1]
  rfl

theorem toMat_v12 : Gcn.toMat (val_main_v12 (F := Ideal) x0 x1 x2 x3 x4 x5 x6) = Gcn.mmul (Gcn.toMat (val_main_v11 (F := Ideal) x0 x1 x2 x3 x4 x5)) (Gcn.toMat x6) :=
  toMat_eq_mmul _ _ _ lidx_main_v12 ridx_main_v12 (fun _ _ _ => by idx2) (fun _ _ _ => by idx2)
    (val_main_v12_apply x0 x1 x2 x3 x4 x5 x6)

/-! ## The third layer -/

theorem toMat_v13 : Gcn.toMat (val_main_v13 (F := Ideal) x0 x1 x2 x3 x4 x5 x6) = Gcn.mmul (Gcn.toMat x1) (Gcn.toMat (val_main_v12 (F := Ideal) x0 x1 x2 x3 x4 x5 x6)) :=
  toMat_eq_mmul _ _ _ lidx_main_v13 ridx_main_v13 (fun _ _ _ => by idx2) (fun _ _ _ => by idx2)
    (val_main_v13_apply x0 x1 x2 x3 x4 x5 x6)

theorem toMat_v17 : Gcn.toMat (val_main_v17 (F := Ideal) x0 x1 x2 x3 x4 x5 x6 x7) = Gcn.biasRelu (Gcn.toMat (val_main_v13 (F := Ideal) x0 x1 x2 x3 x4 x5 x6)) (Gcn.toRow x7) := by
  funext r c
  show (val_main_v17 (F := Ideal) x0 x1 x2 x3 x4 x5 x6 x7) (ix2 r c) = max ((val_main_v13 (F := Ideal) x0 x1 x2 x3 x4 x5 x6) (ix2 r c) + x7 (ix1 c)) Gcn.zero32
  rw [val_main_v17_apply, val_main_v16_apply, val_main_v15_apply, val_main_v14_apply,
    val_main_call2_v0_apply, val_main_call2_cst_apply,
    show idx_main_v14 (idx_main_v15 (ix2 r c)) = ix1 c from by idx1]
  rfl

theorem toMat_v18 : Gcn.toMat (val_main_v18 (F := Ideal) x0 x1 x2 x3 x4 x5 x6 x7 x8) = Gcn.mmul (Gcn.toMat (val_main_v17 (F := Ideal) x0 x1 x2 x3 x4 x5 x6 x7)) (Gcn.toMat x8) :=
  toMat_eq_mmul _ _ _ lidx_main_v18 ridx_main_v18 (fun _ _ _ => by idx2) (fun _ _ _ => by idx2)
    (val_main_v18_apply x0 x1 x2 x3 x4 x5 x6 x7 x8)

/-! ## The last aggregation and its bias -/

theorem toMat_v19 : Gcn.toMat (val_main_v19 (F := Ideal) x0 x1 x2 x3 x4 x5 x6 x7 x8) = Gcn.mmul (Gcn.toMat x1) (Gcn.toMat (val_main_v18 (F := Ideal) x0 x1 x2 x3 x4 x5 x6 x7 x8)) :=
  toMat_eq_mmul _ _ _ lidx_main_v19 ridx_main_v19 (fun _ _ _ => by idx2) (fun _ _ _ => by idx2)
    (val_main_v19_apply x0 x1 x2 x3 x4 x5 x6 x7 x8)

theorem toMat_v22 : Gcn.toMat (val_main_v22 (F := Ideal) x0 x1 x2 x3 x4 x5 x6 x7 x8 x9) = Gcn.addBias (Gcn.toMat (val_main_v19 (F := Ideal) x0 x1 x2 x3 x4 x5 x6 x7 x8)) (Gcn.toRow x9) := by
  funext r c
  show (val_main_v22 (F := Ideal) x0 x1 x2 x3 x4 x5 x6 x7 x8 x9) (ix2 r c) = (val_main_v19 (F := Ideal) x0 x1 x2 x3 x4 x5 x6 x7 x8) (ix2 r c) + x9 (ix1 c)
  rw [val_main_v22_apply, val_main_v21_apply, val_main_v20_apply,
    show idx_main_v20 (idx_main_v21 (ix2 r c)) = ix1 c from by idx1]
  rfl

/-! ## The logarithm of the softmax -/

/-- A row index of the reduced array with column `k` put back is (r, k). -/
theorem lift_ix1 (h : S10000x16.Reduces [1] S10000) (r : Fin 10000) (k : Fin (S10000x16.size 1)) :
    h.lift (ix1 r) k = ix2 r (⟨k.val, k.isLt⟩ : Fin 16) := by
  funext c; apply Fin.ext
  fin_cases c <;> rfl

/-- −∞ is the least extended real, so the maximum with it changes nothing. -/
theorem max_negInf (y : EReal) : max Gcn.negInf y = y := by
  show max (Ideal.ofBits .f32 0xFF800000#32) y = y
  simp [Ideal.ofBits, Ideal.ieee]

/-- The program's row maximum — the fold of the maximum from −∞ along the columns, then once more the maximum with −∞ —
    is the specification's. -/
theorem rowMax_eq (r : Fin 10000) :
    (val_main_call3_v2 (F := Ideal) x0 x1 x2 x3 x4 x5 x6 x7 x8 x9) (ix1 r) = Gcn.rowMax (Gcn.toMat (val_main_v22 (F := Ideal) x0 x1 x2 x3 x4 x5 x6 x7 x8 x9)) r := by
  rw [val_main_call3_v2_apply, val_main_call3_v1_apply, val_main_call3_cst_0_apply]
  show max Gcn.negInf ((val_main_call3_v0 (F := Ideal) x0 x1 x2 x3 x4 x5 x6 x7 x8 x9) (ix1 r)) = _
  rw [max_negInf]
  unfold val_main_call3_v0
  have h : S10000x16.Reduces [1] S10000 := by decide
  rw [Host.reduce_eq_fold_single FloatOps.maximumf _ _ reducesTo_S10000x16_S10000_d1 h h_S_]
  have hf : ((val_main_v22 (F := Ideal) x0 x1 x2 x3 x4 x5 x6 x7 x8 x9) ∘ h.lift (ix1 r)) = fun k : Fin 16 => (val_main_v22 (F := Ideal) x0 x1 x2 x3 x4 x5 x6 x7 x8 x9) (ix2 r k) :=
    funext fun k => congrArg (val_main_v22 (F := Ideal) x0 x1 x2 x3 x4 x5 x6 x7 x8 x9) (lift_ix1 h r k)
  exact congrArg (fun f => Finset.fold max Gcn.negInf f (Finset.univ : Finset (Fin 16))) hf

/-- An entry less its row's maximum. -/
theorem shifted_eq (r : Fin 10000) (c : Fin 16) :
    (val_main_call3_v5 (F := Ideal) x0 x1 x2 x3 x4 x5 x6 x7 x8 x9) (ix2 r c)
      = (val_main_v22 (F := Ideal) x0 x1 x2 x3 x4 x5 x6 x7 x8 x9) (ix2 r c) - Gcn.rowMax (Gcn.toMat (val_main_v22 (F := Ideal) x0 x1 x2 x3 x4 x5 x6 x7 x8 x9)) r := by
  rw [val_main_call3_v5_apply, val_main_call3_v4_apply, val_main_call3_v3_apply,
    show idx_main_call3_v3 (idx_main_call3_v4 (ix2 r c)) = ix1 r from by idx1, rowMax_eq]
  rfl

/-- The row sum of the exponentials: it starts from the zero word, which is the number zero. -/
theorem rowSum_eq (r : Fin 10000) :
    (val_main_call3_v7 (F := Ideal) x0 x1 x2 x3 x4 x5 x6 x7 x8 x9) (ix1 r)
      = ∑ k : Fin 16, Ideal.exp ((val_main_v22 (F := Ideal) x0 x1 x2 x3 x4 x5 x6 x7 x8 x9) (ix2 r k) - Gcn.rowMax (Gcn.toMat (val_main_v22 (F := Ideal) x0 x1 x2 x3 x4 x5 x6 x7 x8 x9)) r) := by
  rw [val_main_call3_v7_apply, val_main_call3_cst_1_apply]
  show Ideal.ofBits .f32 0x00000000#32 + _ = _
  rw [Ideal.ofBits_zero_f32, zero_add]
  refine Finset.sum_congr rfl fun k _ => ?_
  rw [val_main_call3_v6_apply, show idx_main_call3_v7 (ix1 r) k = ix2 r k from by idx2, shifted_eq]
  rfl

/-- The logarithm of the row sum, laid out along the row. -/
theorem logSum_eq (r : Fin 10000) (c : Fin 16) :
    (val_main_call3_v10 (F := Ideal) x0 x1 x2 x3 x4 x5 x6 x7 x8 x9) (ix2 r c)
      = Ideal.log (∑ k : Fin 16, Ideal.exp ((val_main_v22 (F := Ideal) x0 x1 x2 x3 x4 x5 x6 x7 x8 x9) (ix2 r k) - Gcn.rowMax (Gcn.toMat (val_main_v22 (F := Ideal) x0 x1 x2 x3 x4 x5 x6 x7 x8 x9)) r)) := by
  rw [val_main_call3_v10_apply, val_main_call3_v9_apply, val_main_call3_v8_apply,
    show idx_main_call3_v8 (idx_main_call3_v10 (ix2 r c)) = ix1 r from by idx1, rowSum_eq]
  rfl

/-- The program's last stage is the logarithm of the softmax of the stage before it. -/
theorem v23_eq : (val_main_v23 (F := Ideal) x0 x1 x2 x3 x4 x5 x6 x7 x8 x9) = Gcn.ofMat (Gcn.logSoftmax (Gcn.toMat (val_main_v22 (F := Ideal) x0 x1 x2 x3 x4 x5 x6 x7 x8 x9))) := by
  refine Gcn.eq_ofMat _ _ fun r c => ?_
  rw [val_main_v23_apply, shifted_eq, logSum_eq]
  rfl

/-! ## The whole program -/

/-- The reference program's result is the specification's network with the feature product taken first. -/
theorem ref_eq :
    (val_main_v23 (F := Ideal) x0 x1 x2 x3 x4 x5 x6 x7 x8 x9)
      = Gcn.ofMat (Gcn.tail (Gcn.toMat x1)
          (Gcn.firstFeatFirst (Gcn.toMat x1) (Gcn.toMat x0) (Gcn.toMat x2) (Gcn.toRow x3) (Gcn.toMat x4))
          (Gcn.toRow x5) (Gcn.toMat x6) (Gcn.toRow x7) (Gcn.toMat x8) (Gcn.toRow x9)) := by
  rw [v23_eq, toMat_v22, toMat_v19, toMat_v18, toMat_v17, toMat_v13, toMat_v12, toMat_v11, toMat_v7, toMat_v6,
    toMat_v5, toMat_v1, toMat_v0]
  rfl

end Cert.ReferenceIdeal.RefValue

end
-- ==== Proof.Finite.lean ====
/-
  FINITE INPUTS ARE REAL NUMBERS. The precondition tests each of the ten inputs with "every entry has absolute value
  below +∞" and conjoins the ten answers. An extended real x with max x (−x) < ⊤ is neither ⊤ nor ⊥, so it is the
  image of a real number. From the conjunction being 1 each conjunct is 1; a conjunction over all entries that is 1
  holds at every entry; hence every entry of the first three inputs is a real number.
-/
import proofs.«179443_g1520418423397_cont_week2b_307_4_alg».proof.Pre_finite_inputs
import proofs.«179443_g1520418423397_cont_week2b_307_4_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic

/-- The scalar shape has exactly one index. -/
instance subsingleton_scalar_idx : Subsingleton S_.Idx := ⟨fun a b => funext fun d => d.elim0⟩

/-- The word 0x7F800000 denotes +∞. -/
theorem posInf_eq_top : Ideal.ofBits .f32 0x7F800000#32 = (⊤ : EReal) := by
  simp [Ideal.ofBits, Ideal.ieee]

/-- An extended real whose absolute value max x (−x) is strictly below +∞ is a real number. -/
theorem real_of_abs_lt_top (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- If the conjunction, over every index of an array, of "the absolute value of the entry is below +∞" is 1, then
    every entry of the array is a real number. -/
theorem real_of_all {s : Shape} {axes : List (Fin s.rank)}
    (hb : S_.BroadcastsInDim s (![] : Fin 0 → Fin s.rank)) (hr : s.ReducesTo axes S_) (hu : 0 < S_.numel)
    (a : FVec Ideal s .f32) (j : S_.Idx)
    (h : Host.reduce IntOp.andi
          (cmpf .olt (Host.absf a) (broadcastInDim s ![] hb (constant S_ .f32 0x7F800000#32)))
          (constantI S_ 1 1#1) hr hu j = 1#1) :
    ∀ i, ∃ r : ℝ, a i = (r : EReal) := by
  intro i
  have e := Host.reduce_andi_all _ _ hr hu j h i
  exact real_of_abs_lt_top (a i) e

variable [Cert.Pre_finite_inputs.Facts]

/-- The last part of the conjunction chain being 1 makes the value handed to it 1. -/
theorem part2_one (a7 : FVec Ideal S4 .f32) (a8 : FVec Ideal S4x16 .f32) (a9 : FVec Ideal S16 .f32)
    (v33 : IVec S_ 1) (j : S_.Idx)
    (h : Cert.Pre_finite_inputs.fn_part2 (F := Ideal) a7 a8 a9 v33 j = 1#1) : v33 j = 1#1 := by
  dsimp only [Cert.Pre_finite_inputs.fn_part2] at h
  exact (IntOp.andi_eq_one.1 (IntOp.andi_eq_one.1 (IntOp.andi_eq_one.1 h).1).1).1

/-- The middle part of the conjunction chain being 1 makes the conjunction of the first three tests 1. -/
theorem part1_one (a4 : FVec Ideal S600x16 .f32) (a5 : FVec Ideal S16 .f32) (a6 : FVec Ideal S16x4 .f32)
    (a7 : FVec Ideal S4 .f32) (a8 : FVec Ideal S4x16 .f32) (a9 : FVec Ideal S16 .f32)
    (v13 : IVec S_ 1) (v16 : IVec S600 1) (j : S_.Idx)
    (h : Cert.Pre_finite_inputs.fn_part1 (F := Ideal) a4 a5 a6 a7 a8 a9 v13 v16 j = 1#1) : v13 j = 1#1 := by
  dsimp only [Cert.Pre_finite_inputs.fn_part1] at h
  have h33 := part2_one a7 a8 a9 _ j h
  exact (IntOp.andi_eq_one.1 (IntOp.andi_eq_one.1 (IntOp.andi_eq_one.1 (IntOp.andi_eq_one.1 h33).1).1).1).1

/-- Under the precondition, every entry of the first three inputs is a real number. -/
theorem real_of_pre (a0 : FVec Ideal S10000x128 .f32) (a1 : FVec Ideal S10000x10000 .f32)
    (a2 : FVec Ideal S128x600 .f32) (a3 : FVec Ideal S600 .f32) (a4 : FVec Ideal S600x16 .f32)
    (a5 : FVec Ideal S16 .f32) (a6 : FVec Ideal S16x4 .f32) (a7 : FVec Ideal S4 .f32)
    (a8 : FVec Ideal S4x16 .f32) (a9 : FVec Ideal S16 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  have e13 := part1_one a4 a5 a6 a7 a8 a9 _ _ ValueIdx.ix0 e
  obtain ⟨h8, h12⟩ := IntOp.andi_eq_one.1 e13
  obtain ⟨h3, h7⟩ := IntOp.andi_eq_one.1 h8
  exact ⟨real_of_all _ _ _ a0 _ h3, real_of_all _ _ _ a1 _ h7, real_of_all _ _ _ a2 _ h12⟩

end Cert.Pre_finite_inputs.Finite

end
-- ==== Proof.lean ====
/-
  THE CERTIFICATE: a four-layer graph convolution computed by four pipelined kernels equals its array-level reference over
  the extended reals, for finite inputs.

  Both programs end in  logSoftmax (A · S₄ + b₄),  S₄ = relu⁺ (A · S₃) b₃ · W₄,  S₃ = relu⁺ (A · S₂) b₂ · W₃,  and differ
  only in the first layer: the kernels aggregate first, S₂ = relu⁺ ((A · X) · W₁) b₁ · W₂, the reference multiplies the
  features by the weights first, S₂ = relu⁺ (A · (X · W₁)) b₁ · W₂. The kernels also narrow the graph matrix and each
  layer's output to a shorter float format, which at the exact instance changes nothing, and compute each output 400 rows
  at a time, which changes nothing because a row of every layer reads the graph matrix only through the same row.
  The matrix product is associative when A, X and W₁ hold real numbers, which is what the precondition gives; at an
  infinite entry the distributive step behind associativity fails.

  The three frames: the two kernels' are the generated frame certificates; the reference, a host program, runs to its
  operations' composed term with the arguments unchanged. The idealization rewrote nothing, so there is nothing to
  preserve beyond the program's own text.
-/
import proofs.«179443_g1520418423397_cont_week2b_307_4_alg».proof.Defs
import proofs.«179443_g1520418423397_cont_week2b_307_4_alg».proof.Proof.Gen.Kernel
import proofs.«179443_g1520418423397_cont_week2b_307_4_alg».proof.Proof.Gen.Kernel.Skeleton
import proofs.«179443_g1520418423397_cont_week2b_307_4_alg».proof.Proof.Gen.Kernel.Launch
import proofs.«179443_g1520418423397_cont_week2b_307_4_alg».proof.Proof.Gen.Kernel.Points
import proofs.«179443_g1520418423397_cont_week2b_307_4_alg».proof.Proof.Gen.Kernel.Frame
import proofs.«179443_g1520418423397_cont_week2b_307_4_alg».proof.Proof.Gen.KernelIdeal
import proofs.«179443_g1520418423397_cont_week2b_307_4_alg».proof.Proof.Gen.KernelIdeal.Skeleton
import proofs.«179443_g1520418423397_cont_week2b_307_4_alg».proof.Proof.Gen.KernelIdeal.Launch
import proofs.«179443_g1520418423397_cont_week2b_307_4_alg».proof.Proof.Gen.KernelIdeal.Points
import proofs.«179443_g1520418423397_cont_week2b_307_4_alg».proof.Proof.Gen.KernelIdeal.Frame
import proofs.«179443_g1520418423397_cont_week2b_307_4_alg».proof.Proof.Gen.ReferenceIdeal
import proofs.«179443_g1520418423397_cont_week2b_307_4_alg».proof.Proof.Gen.Pre_finite_inputs
import proofs.«179443_g1520418423397_cont_week2b_307_4_alg».proof.Proof.KernelRun
import proofs.«179443_g1520418423397_cont_week2b_307_4_alg».proof.Proof.KernelValue
import proofs.«179443_g1520418423397_cont_week2b_307_4_alg».proof.Proof.RefRunP
import proofs.«179443_g1520418423397_cont_week2b_307_4_alg».proof.Proof.RefReadP
import proofs.«179443_g1520418423397_cont_week2b_307_4_alg».proof.Proof.RefValue
import proofs.«179443_g1520418423397_cont_week2b_307_4_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Gcn

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The result both programs end with, from the kernel's launch memory: the network with the feature product first. -/
def result (m : (ℓ : Loc Cert.KernelIdeal.nD Cert.KernelIdeal.τ Cert.KernelIdeal.sig) → Buf (Elt Ideal) ℓ) (c : Dev Cert.KernelIdeal.nD) : Cert.KernelIdeal.S10000x16.Idx → EReal :=
  ofMat (tail (toMat (m ((c.tc : Thread Cert.KernelIdeal.nD Cert.KernelIdeal.τ).loc Cert.KernelIdeal.main_arg1)))
    (firstFeatFirst (toMat (m ((c.tc : Thread Cert.KernelIdeal.nD Cert.KernelIdeal.τ).loc Cert.KernelIdeal.main_arg1))) (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg2))) (toRow (m ((c.tc : Thread Cert.KernelIdeal.nD Cert.KernelIdeal.τ).loc Cert.KernelIdeal.main_arg3))) (toMat (m ((c.tc : Thread Cert.KernelIdeal.nD Cert.KernelIdeal.τ).loc Cert.KernelIdeal.main_arg4))))
    (toRow (m ((c.tc : Thread Cert.KernelIdeal.nD Cert.KernelIdeal.τ).loc Cert.KernelIdeal.main_arg5))) (toMat (m ((c.tc : Thread Cert.KernelIdeal.nD Cert.KernelIdeal.τ).loc Cert.KernelIdeal.main_arg6))) (toRow (m ((c.tc : Thread Cert.KernelIdeal.nD Cert.KernelIdeal.τ).loc Cert.KernelIdeal.main_arg7))) (toMat (m ((c.tc : Thread Cert.KernelIdeal.nD Cert.KernelIdeal.τ).loc Cert.KernelIdeal.main_arg8))) (toRow (m ((c.tc : Thread Cert.KernelIdeal.nD Cert.KernelIdeal.τ).loc Cert.KernelIdeal.main_arg9))))

/-- The two idealized programs end with equal results: the kernels' four regions compute the aggregation-first network
    of the launch arrays, the reference the feature-product-first one, and for the finite graph matrix, features and first
    weights the precondition gives the two first layers agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => result m c, ?_, ?_⟩
  · refine (θ_run Cert.KernelIdeal.defs _ _).mono (fun r h c => ⟨(h c).1.trans ?_, (h c).2⟩) (Cert.KernelIdeal.Named.run_named (F := Ideal) m ρ)
    obtain ⟨hX, hA, hW⟩ := Cert.Pre_finite_inputs.Finite.real_of_pre _ _ _ _ _ _ _ _ _ _ (hpre c)
    refine (Cert.KernelIdeal.KValue.result_eq m ρ c).trans ?_
    exact congrArg (fun S2 => ofMat (tail (toMat (m ((c.tc : Thread Cert.KernelIdeal.nD Cert.KernelIdeal.τ).loc Cert.KernelIdeal.main_arg1))) S2 (toRow (m ((c.tc : Thread Cert.KernelIdeal.nD Cert.KernelIdeal.τ).loc Cert.KernelIdeal.main_arg5))) (toMat (m ((c.tc : Thread Cert.KernelIdeal.nD Cert.KernelIdeal.τ).loc Cert.KernelIdeal.main_arg6))) (toRow (m ((c.tc : Thread Cert.KernelIdeal.nD Cert.KernelIdeal.τ).loc Cert.KernelIdeal.main_arg7))) (toMat (m ((c.tc : Thread Cert.KernelIdeal.nD Cert.KernelIdeal.τ).loc Cert.KernelIdeal.main_arg8))) (toRow (m ((c.tc : Thread Cert.KernelIdeal.nD Cert.KernelIdeal.τ).loc Cert.KernelIdeal.main_arg9)))))
      (firstAggFirst_eq_firstFeatFirst (toMat (m ((c.tc : Thread Cert.KernelIdeal.nD Cert.KernelIdeal.τ).loc Cert.KernelIdeal.main_arg1))) (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg2))) (toRow (m ((c.tc : Thread Cert.KernelIdeal.nD Cert.KernelIdeal.τ).loc Cert.KernelIdeal.main_arg3))) (toMat (m ((c.tc : Thread Cert.KernelIdeal.nD Cert.KernelIdeal.τ).loc Cert.KernelIdeal.main_arg4)))
        (fun r k => hA (ix2 r k)) (fun r k => hX (ix2 r k)) (fun r k => hW (ix2 r k)))
  · refine (θ_run Cert.ReferenceIdeal.defs _ _).mono (fun r h c => ⟨(h c).1.trans ?_, (h c).2⟩) (Cert.ReferenceIdeal.ValueP.run (F := Ideal) m' ρ')
    obtain ⟨a0, a1, a2, a3, a4, a5, a6, a7, a8, a9⟩ := hagree c
    rw [Cert.ReferenceIdeal.ReadP.val_main_v23_eq, Cert.ReferenceIdeal.RefValue.ref_eq, a0, a1, a2, a3, a4, a5, a6, a7, a8, a9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
